-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S128x4096 : Shape := ⟨2, ![128, 4096]⟩
abbrev S4x128x4096 : Shape := ⟨3, ![4, 128, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S4x128x4096 : S_.BroadcastsInDim S4x128x4096 (![] : Fin 0 → Fin S4x128x4096.rank)
  reducesTo_S4x128x4096_S_d0_1_2 : S4x128x4096.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg7 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  main_v38

def fn_part1 {F : FTy → Type} [FloatOps F] (main_arg4 : FVec F S128x4096 .f32) (main_arg5 : FVec F S4096x128 .f32) (main_arg6 : FVec F S4096x4096 .f32) (main_arg7 : FVec F S4096 .f32) (main_v13 : IVec S_ 1) (main_v16 : IVec S4x128x4096 1) : IVec S_ 1 :=
  let main_c_5 : IVec S_ 1 := constantI S_ 1 1#1
  let main_v17 : IVec S_ 1 := (fun x v => Host.reduce IntOp.andi x v reducesTo_S4x128x4096_S_d0_1_2 h_S_) main_v16 main_c_5
  let main_v18 : IVec S_ 1 := andi main_v13 main_v17
  let main_v19 : FVec F S128x4096 .f32 := Host.absf main_arg4
  let main_cst_6 : FVec F S_ .f32 := constant S_ .f32 0x7F800000#32
  let main_v20 : FVec F S128x4096 .f32 := broadcastInDim S128x4096 ![] bcast_S_S128x4096 main_cst_6
  let main_v21 : IVec S128x4096 1 := cmpf .olt main_v19 main_v20
  let main_c_7 : IVec S_ 1 := constantI S_ 1 1#1
  let main_v22 : IVec S_ 1 := (fun x v => Host.reduce IntOp.andi x v reducesTo_S128x4096_S_d0_1 h_S_) main_v21 main_c_7
  let main_v23 : IVec S_ 1 := andi main_v18 main_v22
  let main_v24 : FVec F S4096x128 .f32 := Host.absf main_arg5
  let main_cst_8 : FVec F S_ .f32 := constant S_ .f32 0x7F800000#32
  let main_v25 : FVec F S4096x128 .f32 := broadcastInDim S4096x128 ![] bcast_S_S4096x128 main_cst_8
  let main_v26 : IVec S4096x128 1 := cmpf .olt main_v24 main_v25
  let main_c_9 : IVec S_ 1 := constantI S_ 1 1#1
  let main_v27 : IVec S_ 1 := (fun x v => Host.reduce IntOp.andi x v reducesTo_S4096x128_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_v33

def fn {F : FTy → Type} [FloatOps F] (main_arg0 : FVec F S4x2048x4096 .f32) (main_arg1 : FVec F S128x4096 .f32) (main_arg2 : FVec F S4x128x4096 .f32) (main_arg3 : FVec F S4x128x4096 .f32) (main_arg4 : FVec F S128x4096 .f32) (main_arg5 : FVec F S4096x128 .f32) (main_arg6 : FVec F S4096x4096 .f32) (main_arg7 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S4x128x4096 .f32 := Host.absf main_arg2
  let main_cst_2 : FVec F S_ .f32 := constant S_ .f32 0x7F800000#32
  let main_v10 : FVec F S4x128x4096 .f32 := broadcastInDim S4x128x4096 ![] bcast_S_S4x128x4096 main_cst_2
  let main_v11 : IVec S4x128x4096 1 := cmpf .olt main_v9 main_v10
  let main_c_3 : IVec S_ 1 := constantI S_ 1 1#1
  let main_v12 : IVec S_ 1 := (fun x v => Host.reduce IntOp.andi x v reducesTo_S4x128x4096_S_d0_1_2 h_S_) main_v11 main_c_3
  let main_v13 : IVec S_ 1 := andi main_v8 main_v12
  let main_v14 : FVec F S4x128x4096 .f32 := Host.absf main_arg3
  let main_cst_4 : FVec F S_ .f32 := constant S_ .f32 0x7F800000#32
  let main_v15 : FVec F S4x128x4096 .f32 := broadcastInDim S4x128x4096 ![] bcast_S_S4x128x4096 main_cst_4
  let main_v16 : IVec S4x128x4096 1 := cmpf .olt main_v14 main_v15
  fn_part1 (F := F) main_arg4 main_arg5 main_arg6 main_arg7 main_v13 main_v16
-- ==== Kernel.lean ====
abbrev S4x2048x4096 : Shape := ⟨3, ![4, 2048, 4096]⟩
abbrev S128x4096 : Shape := ⟨2, ![128, 4096]⟩
abbrev S4x128x4096 : Shape := ⟨3, ![4, 128, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩
abbrev S1x128x4096 : Shape := ⟨3, ![1, 128, 4096]⟩
abbrev S4x2048x128 : Shape := ⟨3, ![4, 2048, 128]⟩
abbrev S1x2048x1024 : Shape := ⟨3, ![1, 2048, 1024]⟩
abbrev S1x128x1024 : Shape := ⟨3, ![1, 128, 1024]⟩
abbrev S1x2048x128 : Shape := ⟨3, ![1, 2048, 128]⟩
abbrev S2048x128 : Shape := ⟨2, ![2048, 128]⟩
abbrev S2048x1024 : Shape := ⟨2, ![2048, 1024]⟩
abbrev S128x1024 : Shape := ⟨2, ![128, 1024]⟩
abbrev S1x4096 : Shape := ⟨2, ![1, 4096]⟩
abbrev S1x2048x512 : Shape := ⟨3, ![1, 2048, 512]⟩
abbrev S1024x128 : Shape := ⟨2, ![1024, 128]⟩
abbrev S1024x512 : Shape := ⟨2, ![1024, 512]⟩
abbrev S1x1024 : Shape := ⟨2, ![1, 1024]⟩
abbrev S2048x512 : Shape := ⟨2, ![2048, 512]⟩

abbrev nBuf : Space → Nat
  | .hbm => 28
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S128x4096, .f32⟩
  | .hbm, ⟨2, _⟩ => ⟨S4x128x4096, .f32⟩
  | .hbm, ⟨3, _⟩ => ⟨S4x128x4096, .f32⟩
  | .hbm, ⟨4, _⟩ => ⟨S128x4096, .f32⟩
  | .hbm, ⟨5, _⟩ => ⟨S4096x128, .f32⟩
  | .hbm, ⟨6, _⟩ => ⟨S4096x4096, .f32⟩
  | .hbm, ⟨7, _⟩ => ⟨S4096, .f32⟩
  | .hbm, ⟨8, _⟩ => ⟨S_, .f32⟩
  | .hbm, ⟨9, _⟩ => ⟨S128x4096, .f32⟩
  | .hbm, ⟨10, _⟩ => ⟨S128x4096, .f32⟩
  | .hbm, ⟨11, _⟩ => ⟨S128x4096, .f32⟩
  | .hbm, ⟨12, _⟩ => ⟨S_, .f32⟩
  | .hbm, ⟨13, _⟩ => ⟨S128x4096, .f32⟩
  | .hbm, ⟨14, _⟩ => ⟨S128x4096, .f32⟩
  | .hbm, ⟨15, _⟩ => ⟨S1x128x4096, .f32⟩
  | .hbm, ⟨16, _⟩ => ⟨S4x128x4096, .f32⟩
  | .hbm, ⟨17, _⟩ => ⟨S4x128x4096, .f32⟩
  | .hbm, ⟨18, _⟩ => ⟨S1x128x4096, .f32⟩
  | .hbm, ⟨19, _⟩ => ⟨S4x128x4096, .f32⟩
  | .hbm, ⟨20, _⟩ => ⟨S4x128x4096, .f32⟩
  | .hbm, ⟨21, _⟩ => ⟨S4x2048x4096, .bf16⟩
  | .hbm, ⟨22, _⟩ => ⟨S4x128x4096, .bf16⟩
  | .hbm, ⟨23, _⟩ => ⟨S4096x128, .bf16⟩
  | .hbm, ⟨24, _⟩ => ⟨S4096x4096, .bf16⟩
  | .hbm, ⟨25, _⟩ => ⟨S4x2048x128, .bf16⟩
  | .hbm, ⟨26, _⟩ => ⟨S1x4096, .f32⟩
  | .hbm, ⟨27, _⟩ => ⟨S4x2048x4096, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x2048x128, .bf16⟩
  | .local _ .vmem, ⟨5, _⟩ => ⟨S1x2048x128, .bf16⟩
  | .local _ .vmem, ⟨6, _⟩ => ⟨S2048x128, .f32⟩
  | .local _ .vmem, ⟨7, _⟩ => ⟨S1x2048x512, .bf16⟩
  | .local _ .vmem, ⟨8, _⟩ => ⟨S1x2048x512, .bf16⟩
  | .local _ .vmem, ⟨9, _⟩ => ⟨S1x2048x128, .bf16⟩
  | .local _ .vmem, ⟨10, _⟩ => ⟨S1x2048x128, .bf16⟩
  | .local _ .vmem, ⟨11, _⟩ => ⟨S1024x128, .bf16⟩
  | .local _ .vmem, ⟨12, _⟩ => ⟨S1024x128, .bf16⟩
  | .local _ .vmem, ⟨13, _⟩ => ⟨S1024x512, .bf16⟩
  | .local _ .vmem, ⟨14, _⟩ => ⟨S1024x512, .bf16⟩
  | .local _ .vmem, ⟨15, _⟩ => ⟨S1x1024, .f32⟩
  | .local _ .vmem, ⟨16, _⟩ => ⟨S1x1024, .f32⟩
  | .local _ .vmem, ⟨17, _⟩ => ⟨S1x2048x1024, .f32⟩
  | .local _ .vmem, ⟨18, _⟩ => ⟨S1x2048x1024, .f32⟩
  | .local _ .vmem, ⟨19, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, true]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  bcast_S_S128x4096 : S_.BroadcastsInDim S128x4096 (![] : Fin 0 → Fin S128x4096.rank)
  bcast_S128x4096_S1x128x4096_1_2 : S128x4096.BroadcastsInDim S1x128x4096 (![1, 2] : Fin 2 → Fin S1x128x4096.rank)
  bcast_S1x128x4096_S4x128x4096_0_1_2 : S1x128x4096.BroadcastsInDim S4x128x4096 (![0, 1, 2] : Fin 3 → Fin S4x128x4096.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  packedbf16_S1x2048x128_S1x2048x128_0_0_0 : (Rect.unit (s := S1x2048x128) ![0, 0, 0] S1x2048x128.size inb_S1x2048x128_S1x2048x128_0_0_0).PackedRows (EltTy.packing .bf16)
  shapeCasts_S4096_S1x4096 : S4096.ShapeCasts S1x4096
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S2048x1024_S1x2048x1024 : S2048x1024.ShapeCasts S1x2048x1024
  dot_S2048x1024_S128x1024_S2048x128_1_1_0_0_n_n_wf : DotDims.WF S2048x1024 S128x1024 S2048x128 [1] [1] [0] [0] [] []
  dot_S2048x128_S1024x128_S2048x1024_1_1_0_0_n_n_wf : DotDims.WF S2048x128 S1024x128 S2048x1024 [1] [1] [0] [0] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x4096.size a
  hwx0_0 : ∀ i : grid0.Coords, EltTy.bits .bf16 = 32 ∨ (Rect.block (s := S4x2048x4096) S1x2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1024.size a ≤ S4x128x4096.size a
  hwx0_1 : ∀ i : grid0.Coords, EltTy.bits .bf16 = 32 ∨ (Rect.block (s := S4x128x4096) S1x128x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x128.size a
  hwx0_2 : ∀ i : grid0.Coords, EltTy.bits .bf16 = 32 ∨ (Rect.block (s := S4x2048x128) S1x2048x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S4x2048x4096.size a
  hwx1_0 : ∀ i : grid1.Coords, EltTy.bits .bf16 = 32 ∨ (Rect.block (s := S4x2048x4096) S1x2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S4x2048x128.size a
  hwx1_1 : ∀ i : grid1.Coords, EltTy.bits .bf16 = 32 ∨ (Rect.block (s := S4x2048x128) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .bf16 = 32 ∨ (Rect.block (s := S4096x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x4096.size a
  hwx1_3 : ∀ i : grid1.Coords, EltTy.bits .bf16 = 32 ∨ (Rect.block (s := S4096x4096) S1024x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2048x1024.size a ≤ S4x2048x4096.size a
  hwx1_5 : ∀ i : grid1.Coords, EltTy.bits .f32 = 32 ∨ (Rect.block (s := S4x2048x4096) S1x2048x1024.size (cc1_transform_5 i) (hinb1_5 i)).WholeWords (EltTy.packing .f32)

variable [Facts₀]

def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v11) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v11) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S128x4096 : Shape := ⟨2, ![128, 4096]⟩
abbrev S4x128x4096 : Shape := ⟨3, ![4, 128, 4096]⟩
abbrev S4096x128 : Shape := ⟨2, ![4096, 128]⟩
abbrev S4096x4096 : Shape := ⟨2, ![4096, 4096]⟩
abbrev S4096 : Shape := ⟨1, ![4096]⟩
abbrev S_ : Shape := ⟨0, ![]⟩
abbrev S1x128x4096 : Shape := ⟨3, ![1, 128, 4096]⟩
abbrev S4x2048x128 : Shape := ⟨3, ![4, 2048, 128]⟩
abbrev S1x1x4096 : Shape := ⟨3, ![1, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S128x4096, .f32⟩
  | .hbm, ⟨2, _⟩ => ⟨S4x128x4096, .f32⟩
  | .hbm, ⟨3, _⟩ => ⟨S4x128x4096, .f32⟩
  | .hbm, ⟨4, _⟩ => ⟨S128x4096, .f32⟩
  | .hbm, ⟨5, _⟩ => ⟨S4096x128, .f32⟩
  | .hbm, ⟨6, _⟩ => ⟨S4096x4096, .f32⟩
  | .hbm, ⟨7, _⟩ => ⟨S4096, .f32⟩
  | .hbm, ⟨8, _⟩ => ⟨S_, .f32⟩
  | .hbm, ⟨9, _⟩ => ⟨S128x4096, .f32⟩
  | .hbm, ⟨10, _⟩ => ⟨S128x4096, .f32⟩
  | .hbm, ⟨11, _⟩ => ⟨S128x4096, .f32⟩
  | .hbm, ⟨12, _⟩ => ⟨S_, .f32⟩
  | .hbm, ⟨13, _⟩ => ⟨S128x4096, .f32⟩
  | .hbm, ⟨14, _⟩ => ⟨S128x4096, .f32⟩
  | .hbm, ⟨15, _⟩ => ⟨S1x128x4096, .f32⟩
  | .hbm, ⟨16, _⟩ => ⟨S4x128x4096, .f32⟩
  | .hbm, ⟨17, _⟩ => ⟨S4x128x4096, .f32⟩
  | .hbm, ⟨18, _⟩ => ⟨S4x2048x128, .f32⟩
  | .hbm, ⟨19, _⟩ => ⟨S4x2048x128, .f32⟩
  | .hbm, ⟨20, _⟩ => ⟨S4x2048x128, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]

class Facts₀ : Prop where
  bcast_S_S128x4096 : S_.BroadcastsInDim S128x4096 (![] : Fin 0 → Fin S128x4096.rank)
  bcast_S128x4096_S1x128x4096_1_2 : S128x4096.BroadcastsInDim S1x128x4096 (![1, 2] : Fin 2 → Fin S1x128x4096.rank)
  bcast_S1x128x4096_S4x128x4096_0_1_2 : S1x128x4096.BroadcastsInDim S4x128x4096 (![0, 1, 2] : Fin 3 → Fin S4x128x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4x128x4096_S4x2048x128_2_2_1_1_0_0_wf : DotDims.WF S4x2048x4096 S4x128x4096 S4x2048x128 [2] [2] [1] [1] [0] [0]
  dot_S4x2048x4096_S128x4096_S4x2048x128_2_1_01_0_n_n_wf : DotDims.WF S4x2048x4096 S128x4096 S4x2048x128 [2] [1] [0, 1] [0] [] []
  dot_S4x2048x128_S4096x128_S4x2048x4096_2_1_01_0_n_n_wf : DotDims.WF S4x2048x128 S4096x128 S4x2048x4096 [2] [1] [0, 1] [0] [] []
  dot_S4x2048x4096_S4096x4096_S4x2048x4096_2_1_01_0_n_n_wf : DotDims.WF S4x2048x4096 S4096x4096 S4x2048x4096 [2] [1] [0, 1] [0] [] []

variable [Facts₀]

def dot_S4x2048x4096_S4x128x4096_S4x2048x128_2_2_1_1_0_0 : DotDims S4x2048x4096 S4x128x4096 S4x2048x128 where
  lhsContracting := [2]
  rhsContracting := [2]
  lhsNonContracting := [1]
  rhsNonContracting := [1]
  lhsBatch := [0]
  rhsBatch := [0]
  wf := dot_S4x2048x4096_S4x128x4096_S4x2048x128_2_2_1_1_0_0_wf
def dot_S4x2048x4096_S128x4096_S4x2048x128_2_1_01_0_n_n : DotDims S4x2048x4096 S128x4096 S4x2048x128 where
  lhsContracting := [2]
  rhsContracting := [1]
  lhsNonContracting := [0, 1]
  rhsNonContracting := [0]
  lhsBatch := []
  rhsBatch := []
  wf := dot_S4x2048x4096_S128x4096_S4x2048x128_2_1_01_0_n_n_wf
def dot_S4x2048x128_S4096x128_S4x2048x4096_2_1_01_0_n_n : DotDims S4x2048x128 S4096x128 S4x2048x4096 where
  lhsContracting := [2]
  rhsContracting := [1]
  lhsNonContracting := [0, 1]
  rhsNonContracting := [0]
  lhsBatch := []
  rhsBatch := []
  wf := dot_S4x2048x128_S4096x128_S4x2048x4096_2_1_01_0_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BK0Base.lean ====
/-
  The first kernel region (the product z = x · wbᵀ accumulated over four blocks of the contracted axis):
  what its runs share. Its grid is 4 × 4, the second coordinate the block of the contracted axis; the body
  resets the accumulator where that coordinate is 0, adds one block's product at every point, and stores the
  accumulator into the output block where the coordinate is 3. Here: the two conditions in closed form over
  the sixteen points, where the output window is idle, the staging memrefs at a point, the accumulator as a
  memref, the scoped buffers the region does not touch, and each input window's block at a point read off the
  array the region finds.
-/
import proofs.«171241_j26474178412911_2_alg».proof.Proof.Gen.Kernel.Launch
import proofs.«171241_j26474178412911_2_alg».proof.Proof.Gen.Kernel.Skeleton
import proofs.«171241_j26474178412911_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions over the grid -/

/-- The accumulator is reset where the block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output block is stored where the block coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs -/

/-- One staging buffer of the output window, through which its contents are stated. -/
abbrev VO0_2 : View sig .tc .vmem S1x2048x128 .bf16 := (Memref.whole cc0_stg2_0 : Memref sig .tc .vmem S1x2048x128 .bf16).view
abbrev ms0_0 (t : Fin cfg0.N) : Memref sig .tc .vmem S1x2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x128 .f32 := Memref.whole cc0_scratch0
abbrev VS0 : View sig .tc .vmem S2048x128 .f32 := scM0.view

/-- The scoped buffers the first region neither stages nor names: the second region's staging buffers and accumulator. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region's invariant holds when nothing is said of the accumulator: the accumulator at some contents,
    the untouched scoped buffers, the generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-! ## The windows' blocks -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

end Cert.Kernel.Acc

end
-- ==== Proof.BK0RunA.lean ====
/-
  The first kernel region's body run whole in the case where the accumulator is reset (block coordinate 0): it is zeroed, then one block's product is added; nothing is stored into the output block.
-/
import proofs.«171241_j26474178412911_2_alg».proof.Proof.BK0Base

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body in this case on whole staging memrefs: the inputs' at their contents, the output's (not stored into here) handed back as found, the accumulator at anything; it runs to the continuation holding the inputs' as they were and the accumulator with the pieces the stores wrote. The pieces are found by the run. -/
noncomputable def kernelRun0_A (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : cond0_0 i) (hc1 : ¬cond0_1 i)
    (x0 : Vec F S1x2048x1024 .bf16) (x1 : Vec F S1x128x1024 .bf16) :
    { LS0 : List (View.Piece (Elt F) S2048x128 .f32) //
      ∀ (xi2 : Vec F S1x2048x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨?_, fun xi2 E K => ?run⟩
  case run =>
    simp only [cc0__z_kernel_eq_skeleton]; unfold cc0__z_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Acc

end
-- ==== Proof.BK0RunB.lean ====
/-
  The first kernel region's body run whole in the case where one block's product is added to the accumulator the point before left (block coordinates 1 and 2); nothing is stored into the output block.
-/
import proofs.«171241_j26474178412911_2_alg».proof.Proof.BK0RunA

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body in this case on whole staging memrefs: the inputs' at their contents, the output's (not stored into here) handed back as found, the accumulator at what the point before left; it runs to the continuation holding the inputs' as they were and the accumulator with the pieces the stores wrote. The pieces are found by the run. -/
noncomputable def kernelRun0_B (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : ¬cond0_1 i)
    (x0 : Vec F S1x2048x1024 .bf16) (x1 : Vec F S1x128x1024 .bf16) (xs0 : Vec F S2048x128 .f32) :
    { LS0 : List (View.Piece (Elt F) S2048x128 .f32) //
      ∀ (xi2 : Vec F S1x2048x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨?_, fun xi2 E K => ?run⟩
  case run =>
    simp only [cc0__z_kernel_eq_skeleton]; unfold cc0__z_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg5.eq_unread hfs0; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Acc

end
-- ==== Proof.BK0RunC.lean ====
/-
  The first kernel region's body run whole in the case where the last block's product is added to the accumulator the point before left and the sum is stored, narrowed, into the output block (block coordinate 3).
-/
import proofs.«171241_j26474178412911_2_alg».proof.Proof.BK0RunB

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body in this case on whole staging memrefs: the inputs' at their contents, the output's at anything, the accumulator at what the point before left; it runs to the continuation holding the inputs' as they were and the accumulator and the output's buffer with the pieces the stores wrote. The pieces are found by the run. -/
noncomputable def kernelRun0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i)
    (x0 : Vec F S1x2048x1024 .bf16) (x1 : Vec F S1x128x1024 .bf16) (xs0 : Vec F S2048x128 .f32) :
    Σ' (L2 : List (View.Piece (Elt F) S1x2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨?_, ?_, fun E K => ?run⟩
  case run =>
    simp only [cc0__z_kernel_eq_skeleton]; unfold cc0__z_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Acc

end
-- ==== Proof.BK0Frame.lean ====
/-
  The first kernel region point by point. What each case of the body leaves in the accumulator (and, where the
  output block is stored, in the output window's buffer) is the run's pieces read back; what the accumulator and
  the output buffer hold after point n is then a recursion on n: the reset case starts from nothing, the other
  two from what point n - 1 left in the accumulator. The region's invariant carries the accumulator at that value
  from one point to the next. From these: the pipeline's proof data and the body obligation at every point.
-/
import proofs.«171241_j26474178412911_2_alg».proof.Proof.BK0RunC

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover0_A (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : cond0_0 i) (hc1 : ¬cond0_1 i) (x0 : Vec F S1x2048x1024 .bf16) (x1 : Vec F S1x128x1024 .bf16) (y : S2048x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S2048x128.size (by sl_kernel_rfl) y
/-- The accumulator after the reset case: zero plus the block's product. -/
def sout0_A (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : cond0_0 i) (hc1 : ¬cond0_1 i) (x0 : Vec F S1x2048x1024 .bf16) (x1 : Vec F S1x128x1024 .bf16) : Vec F S2048x128 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : ¬cond0_1 i) (x0 : Vec F S1x2048x1024 .bf16) (x1 : Vec F S1x128x1024 .bf16) (xs0 : Vec F S2048x128 .f32) (y : S2048x128.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S2048x128.size (by sl_kernel_rfl) y
/-- The accumulator after an accumulating case: what it held plus the block's product. -/
def sout0_B (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : ¬cond0_1 i) (x0 : Vec F S1x2048x1024 .bf16) (x1 : Vec F S1x128x1024 .bf16) (xs0 : Vec F S2048x128 .f32) : Vec F S2048x128 .f32 :=
  VS0.read (Elt F) (VS0.writes (Elt F) VS0.junk (kernelRun0_B c i arg2 harg2 arg3 harg3 arg4 harg4 arg5 harg5 hc0 hc1 x0 x1 xs0).1)

theorem cover0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) (y : S1x2048x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x2048x128.size (by sl_kernel_rfl) y
/-- The output window's buffer after the storing case. -/
def out0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) : Vec F S1x2048x128 .bf16 :=
  VO0_2.read (Elt F) (VO0_2.writes (Elt F) VO0_2.junk (kernelRun0_C c i arg2 harg2 arg3 harg3 arg4 harg4 arg5 harg5 hc0 hc1 x0 x1 xs0).1)
theorem scover0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y
/-- The accumulator after the storing case. -/
def sout0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) : Vec F S2048x128 .f32 :=
  VS0.read (Elt F) (VS0.writes (Elt F) VS0.junk (kernelRun0_C c i arg2 harg2 arg3 harg3 arg4 harg4 arg5 harg5 hc0 hc1 x0 x1 xs0).2.1)

/-- Where the output block is not stored its component below is never consulted: any value will do. -/
def noOut0 : Vec F S1x2048x128 .bf16 := VO0_2.read (Elt F) VO0_2.junk

section
variable (V : (c : Dev nD) → (b : Ref sig .tc) → Buf (Elt F) ((c : Thread nD τ).loc b))

/-! ## Point by point -/

/-- What the output window's buffer and the accumulator hold after the body at position `n`. -/
def outsAt0 (c : Dev nD) : (n : ℕ) → n < cfg0.N → Vec F S1x2048x128 .bf16 × Vec F S2048x128 .f32
  | 0, hn => (noOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (noOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (noOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (noOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (noOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point nothing is said of the accumulator;
    afterwards it holds what the point before left. The scoped buffers the region does not touch and the generator
    register ride along. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which case the point is in;
    the invariant hands over the accumulator at what the point before left (at anything before the first point) and
    takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives everything back, the accumulator's value forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, Hrest⟩, Hg⟩
  isplitl [HS0 Hrest]
  · isplitl [HS0]
    · iexists _; iexact HS0
    iexact Hrest
  iexact Hg

end

end Cert.Kernel.Acc

end
-- ==== Proof.BK1Base.lean ====
/-
  The second kernel region (y = z · w_outᵀ + x · w_linᵀ + b_lin, the second product accumulated over eight blocks
  of the contracted axis): what its runs share. Its grid is 4 × 4 × 8, the last coordinate the block of the
  contracted axis; the body sets the accumulator to z · w_outᵀ where that coordinate is 0, adds one block's product
  at every point, and stores the accumulator plus the bias row into the output block where the coordinate is 7.
-/
import proofs.«171241_j26474178412911_2_alg».proof.Proof.Gen.Kernel.Launch
import proofs.«171241_j26474178412911_2_alg».proof.Proof.Gen.Kernel.Skeleton
import proofs.«171241_j26474178412911_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions over the grid -/

/-- The accumulator is set afresh where the block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output block is stored where the block coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs -/

abbrev VO1_5 : View sig .tc .vmem S1x2048x1024 .f32 := (Memref.whole cc1_stg5_0 : Memref sig .tc .vmem S1x2048x1024 .f32).view
abbrev ms1_0 (t : Fin cfg1.N) : Memref sig .tc .vmem S1x2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048x1024 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S2048x1024 .f32 := Memref.whole cc1_scratch0
abbrev VS1 : View sig .tc .vmem S2048x1024 .f32 := scM1.view

/-- The scoped buffers the second region neither stages nor names (the first region's staging buffers and
    accumulator), in front of what is said of its own accumulator. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

theorem PhiA1_eq (c : Dev nD) :
    (Pipeline.ΦA spec1 c : sProp 𝕄)
      = iprop(rest1 (F := F) c (iprop(∃ d, owns (c : Thread nD τ) scM1 fullShare d)) ∗ (∃ r, prngReg c r)) := by
  unfold Pipeline.ΦA rest1; rw [scopedRest1_eq]; simp only [scM1, owns_whole]; try rfl

/-! ## The windows' blocks -/

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

end Cert.Kernel.Acc

end
-- ==== Proof.BK1RunA.lean ====
/-
  The second kernel region's body run whole in the case where the accumulator is set afresh (block coordinate 0): it takes z · w_outᵀ, then the first block's product is added; nothing is stored into the output block.
-/
import proofs.«171241_j26474178412911_2_alg».proof.Proof.BK1Base

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body in this case on whole staging memrefs: the inputs' at their contents, the output's (not stored into here) handed back as found, the accumulator at anything; it runs to the continuation holding the inputs' as they were and the accumulator with the pieces the stores wrote. The pieces are found by the run. -/
noncomputable def kernelRun1_A (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond1_0 i) (hc1 : ¬cond1_1 i)
    (x0 : Vec F S1x2048x512 .bf16) (x1 : Vec F S1x2048x128 .bf16) (x2 : Vec F S1024x128 .bf16) (x3 : Vec F S1024x512 .bf16) (x4 : Vec F S1x1024 .f32) :
    { LS0 : List (View.Piece (Elt F) S2048x1024 .f32) //
      ∀ (xi5 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨?_, fun xi5 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Acc

end
-- ==== Proof.BK1RunB.lean ====
/-
  The second kernel region's body run whole in the case where one block's product is added to the accumulator the point before left (block coordinates 1 to 6); nothing is stored into the output block.
-/
import proofs.«171241_j26474178412911_2_alg».proof.Proof.BK1RunA

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body in this case on whole staging memrefs: the inputs' at their contents, the output's (not stored into here) handed back as found, the accumulator at what the point before left; it runs to the continuation holding the inputs' as they were and the accumulator with the pieces the stores wrote. The pieces are found by the run. -/
noncomputable def kernelRun1_B (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : ¬cond1_1 i)
    (x0 : Vec F S1x2048x512 .bf16) (x1 : Vec F S1x2048x128 .bf16) (x2 : Vec F S1024x128 .bf16) (x3 : Vec F S1024x512 .bf16) (x4 : Vec F S1x1024 .f32) (xs0 : Vec F S2048x1024 .f32) :
    { LS0 : List (View.Piece (Elt F) S2048x1024 .f32) //
      ∀ (xi5 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨?_, fun xi5 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.Kernel.Acc

end
-- ==== Proof.BK1RunC.lean ====
/-
  The second kernel region's body run whole in the case where the last block's product is added to the accumulator the point before left and the sum plus the bias row is stored into the output block (block coordinate 7).
-/
import proofs.«171241_j26474178412911_2_alg».proof.Proof.BK1RunB

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body in this case on whole staging memrefs: the inputs' at their contents, the output's at anything, the accumulator at what the point before left; it runs to the continuation holding the inputs' as they were and the accumulator and the output's buffer with the pieces the stores wrote. The pieces are found by the run. -/
noncomputable def kernelRun1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i)
    (x0 : Vec F S1x2048x512 .bf16) (x1 : Vec F S1x2048x128 .bf16) (x2 : Vec F S1024x128 .bf16) (x3 : Vec F S1024x512 .bf16) (x4 : Vec F S1x1024 .f32) (xs0 : Vec F S2048x1024 .f32) :
    Σ' (L5 : List (View.Piece (Elt F) S1x2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨?_, ?_, fun E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS0

end Cert.Kernel.Acc

end
-- ==== Proof.BK1Frame.lean ====
/-
  The second kernel region point by point, as the first: what each case leaves in the accumulator (and in the
  output window's buffer where the output block is stored), what they hold after point n by recursion on n, the
  invariant carrying the accumulator from point to point, the pipeline's proof data and the body obligation.
-/
import proofs.«171241_j26474178412911_2_alg».proof.Proof.BK1RunC

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) (y : S2048x1024.Idx) :
    ∃ pc ∈ (kernelRun1_A c i arg3 harg3 arg4 harg4 arg5 harg5 arg6 harg6 arg7 harg7 arg8 harg8 arg9 harg9 hc0 hc1 x0 x1 x2 x3 x4).1, y ∈ pc.1.set :=
  View.cover_of_tiledL (kernelRun1_A c i arg3 harg3 arg4 harg4 arg5 harg5 arg6 harg6 arg7 harg7 arg8 harg8 arg9 harg9 hc0 hc1 x0 x1 x2 x3 x4).1 S2048x1024.size (by sl_kernel_rfl) y
/-- The accumulator after the case that sets it afresh: z · w_outᵀ plus the first block's product. -/
def sout1_A (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) : Vec F S2048x1024 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).1)

theorem scover1_B (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) (y : S2048x1024.Idx) :
    ∃ pc ∈ (kernelRun1_B c i arg3 harg3 arg4 harg4 arg5 harg5 arg6 harg6 arg7 harg7 arg8 harg8 arg9 harg9 hc0 hc1 x0 x1 x2 x3 x4 xs0).1, y ∈ pc.1.set :=
  View.cover_of_tiledL (kernelRun1_B c i arg3 harg3 arg4 harg4 arg5 harg5 arg6 harg6 arg7 harg7 arg8 harg8 arg9 harg9 hc0 hc1 x0 x1 x2 x3 x4 xs0).1 S2048x1024.size (by sl_kernel_rfl) y
/-- The accumulator after an accumulating case. -/
def sout1_B (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) : Vec F S2048x1024 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs0).1)

theorem cover1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) (y : S1x2048x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x2048x1024.size (by sl_kernel_rfl) y
/-- The output window's buffer after the storing case. -/
def out1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) : Vec F S1x2048x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)
theorem scover1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) (y : S2048x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S2048x1024.size (by sl_kernel_rfl) y
/-- The accumulator after the storing case. -/
def sout1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) : Vec F S2048x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-- Where the output block is not stored its component below is never consulted: any value will do. -/
def noOut1 : Vec F S1x2048x1024 .f32 := VO1_5.read (Elt F) VO1_5.junk

section
variable (V : (c : Dev nD) → (b : Ref sig .tc) → Buf (Elt F) ((c : Thread nD τ).loc b))

/-! ## Point by point -/

/-- What the output window's buffer and the accumulator hold after the body at position `n`. -/
def outsAt1 (c : Dev nD) : (n : ℕ) → n < cfg1.N → Vec F S1x2048x1024 .f32 × Vec F S2048x1024 .f32
  | 0, hn => (noOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (noOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (noOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (noOut1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (noOut1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. -/
def PhiS1 (c : Dev nD) : (n : ℕ) → n ≤ cfg1.N → sProp 𝕄
  | 0, _ => Pipeline.ΦA spec1 c
  | n + 1, hn => iprop(rest1 (F := F) c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(rest1 (F := F) c (owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      unfold rest1
      iintro ⟨⟨⟨R0, R1, R2, R3, R4, R5, R6, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R0 R1 R2 R3 R4 R5 R6 HS0 Hg]
      · isplitl [R0 R1 R2 R3 R4 R5 R6 HS0]
        · skip
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      unfold rest1
      iintro ⟨⟨⟨R0, R1, R2, R3, R4, R5, R6, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [R0 R1 R2 R3 R4 R5 R6 HS0 Hg]
      · isplitl [R0 R1 R2 R3 R4 R5 R6 HS0]
        · skip
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C sout1_C; (try dsimp only)
      rw [PhiS1_castSucc V c t, PhiS1_pos V c _ _ hz]
      unfold rest1
      iintro ⟨⟨⟨R0, R1, R2, R3, R4, R5, R6, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [R0 R1 R2 R3 R4 R5 R6 HS0 Hg]
      · isplitl [R0 R1 R2 R3 R4 R5 R6 HS0]
        · skip
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B; (try dsimp only)
      rw [PhiS1_castSucc V c t, PhiS1_pos V c _ _ hz]
      unfold rest1
      iintro ⟨⟨⟨R0, R1, R2, R3, R4, R5, R6, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R0 R1 R2 R3 R4 R5 R6 HS0 Hg]
      · isplitl [R0 R1 R2 R3 R4 R5 R6 HS0]
        · skip
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold rest1
  iintro ⟨⟨R0, R1, R2, R3, R4, R5, R6, HS0⟩, Hg⟩
  isplitl [R0 R1 R2 R3 R4 R5 R6 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HS0
  iexact Hg

end

end Cert.Kernel.Acc

end
-- ==== Proof.BKRun.lean ====
/-
  The whole run: the host operations before the first region, the first region, the one host operation between,
  the second region. The unscoped buffers' contents at each boundary are a fold from the launch memory: a stretch
  of host operations applies them; a region leaves its arrays at what its write-backs leave and every other buffer
  as it was. Every weakly fair execution terminates with every unscoped buffer at the last boundary's contents;
  in particular no argument array is ever written, and the result array is what the second region's write-backs
  leave.
-/
import proofs.«171241_j26474178412911_2_alg».proof.Proof.BK0Frame
import proofs.«171241_j26474178412911_2_alg».proof.Proof.BK1Frame

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The region as a segment: entered from every unscoped buffer at the contents before it and left at the contents
    after it; its arrays are split out of the unscoped buffers and put back at what the write-backs leave; the
    generator register and the scoped buffers go into the invariant and come back; nothing owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region as a segment: entered from every unscoped buffer at the contents before it and left at the contents
    after it; its arrays are split out of the unscoped buffers and put back at what the write-backs leave; the
    generator register and the scoped buffers go into the invariant and come back; nothing owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.Kernel.Acc

end
-- ==== Proof.BKArgs.lean ====
/-
  No stretch of host operations writes an argument array and no region has one among its windows' arrays, so the
  fold of the buffers' contents, read at an argument, walks back to the launch memory: the frame.
-/
import proofs.«171241_j26474178412911_2_alg».proof.Proof.BKRun

set_option maxRecDepth 16384

noncomputable section

namespace Cert.Kernel.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one host operation between the regions writes only the reshaped bias row. -/
theorem W3_of_ne (c : Dev nD) (b : Ref sig .tc) (hb : b ≠ main_v16) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W4_main_arg0 (c : Dev nD) : W4 m ρ c (Proc.devRef .tc main_arg0) = m ((c : Thread nD τ).loc main_arg0) :=
  (W4_of_ne m ρ c main_arg0 (by decide)).trans ((W3_of_ne m ρ c main_arg0 (by decide)).trans (W2_main_arg0 m ρ c))
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W4_main_arg1 (c : Dev nD) : W4 m ρ c (Proc.devRef .tc main_arg1) = m ((c : Thread nD τ).loc main_arg1) :=
  (W4_of_ne m ρ c main_arg1 (by decide)).trans ((W3_of_ne m ρ c main_arg1 (by decide)).trans (W2_main_arg1 m ρ c))
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W4_main_arg2 (c : Dev nD) : W4 m ρ c (Proc.devRef .tc main_arg2) = m ((c : Thread nD τ).loc main_arg2) :=
  (W4_of_ne m ρ c main_arg2 (by decide)).trans ((W3_of_ne m ρ c main_arg2 (by decide)).trans (W2_main_arg2 m ρ c))
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W4_main_arg3 (c : Dev nD) : W4 m ρ c (Proc.devRef .tc main_arg3) = m ((c : Thread nD τ).loc main_arg3) :=
  (W4_of_ne m ρ c main_arg3 (by decide)).trans ((W3_of_ne m ρ c main_arg3 (by decide)).trans (W2_main_arg3 m ρ c))
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W4_main_arg4 (c : Dev nD) : W4 m ρ c (Proc.devRef .tc main_arg4) = m ((c : Thread nD τ).loc main_arg4) :=
  (W4_of_ne m ρ c main_arg4 (by decide)).trans ((W3_of_ne m ρ c main_arg4 (by decide)).trans (W2_main_arg4 m ρ c))
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W4_main_arg5 (c : Dev nD) : W4 m ρ c (Proc.devRef .tc main_arg5) = m ((c : Thread nD τ).loc main_arg5) :=
  (W4_of_ne m ρ c main_arg5 (by decide)).trans ((W3_of_ne m ρ c main_arg5 (by decide)).trans (W2_main_arg5 m ρ c))
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W4_main_arg6 (c : Dev nD) : W4 m ρ c (Proc.devRef .tc main_arg6) = m ((c : Thread nD τ).loc main_arg6) :=
  (W4_of_ne m ρ c main_arg6 (by decide)).trans ((W3_of_ne m ρ c main_arg6 (by decide)).trans (W2_main_arg6 m ρ c))
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W4_main_arg7 (c : Dev nD) : W4 m ρ c (Proc.devRef .tc main_arg7) = m ((c : Thread nD τ).loc main_arg7) :=
  (W4_of_ne m ρ c main_arg7 (by decide)).trans ((W3_of_ne m ρ c main_arg7 (by decide)).trans (W2_main_arg7 m ρ c))

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c)⟩)
    (run_all m ρ)

end Cert.Kernel.Acc

end
-- ==== Proof.K0Base.lean ====
/-
  The first kernel region (the product z = x · wbᵀ accumulated over four blocks of the contracted axis):
  what its runs share. Its grid is 4 × 4, the second coordinate the block of the contracted axis; the body
  resets the accumulator where that coordinate is 0, adds one block's product at every point, and stores the
  accumulator into the output block where the coordinate is 3. Here: the two conditions in closed form over
  the sixteen points, where the output window is idle, the staging memrefs at a point, the accumulator as a
  memref, the scoped buffers the region does not touch, and each input window's block at a point read off the
  array the region finds.
-/
import proofs.«171241_j26474178412911_2_alg».proof.Proof.Gen.KernelIdeal.Launch
import proofs.«171241_j26474178412911_2_alg».proof.Proof.Gen.KernelIdeal.Skeleton
import proofs.«171241_j26474178412911_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions over the grid -/

/-- The accumulator is reset where the block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The output block is stored where the block coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs -/

/-- One staging buffer of the output window, through which its contents are stated. -/
abbrev VO0_2 : View sig .tc .vmem S1x2048x128 .bf16 := (Memref.whole cc0_stg2_0 : Memref sig .tc .vmem S1x2048x128 .bf16).view
abbrev ms0_0 (t : Fin cfg0.N) : Memref sig .tc .vmem S1x2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S2048x128 .f32 := Memref.whole cc0_scratch0
abbrev VS0 : View sig .tc .vmem S2048x128 .f32 := scM0.view

/-- The scoped buffers the first region neither stages nor names: the second region's staging buffers and accumulator. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the region's invariant holds when nothing is said of the accumulator: the accumulator at some contents,
    the untouched scoped buffers, the generator register at some state. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA rest0; rw [scopedRest0_eq]; simp only [scM0, owns_whole]; try rfl

/-! ## The windows' blocks -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

end Cert.KernelIdeal.Acc

end
-- ==== Proof.K0RunA.lean ====
/-
  The first kernel region's body run whole in the case where the accumulator is reset (block coordinate 0): it is zeroed, then one block's product is added; nothing is stored into the output block.
-/
import proofs.«171241_j26474178412911_2_alg».proof.Proof.K0Base

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body in this case on whole staging memrefs: the inputs' at their contents, the output's (not stored into here) handed back as found, the accumulator at anything; it runs to the continuation holding the inputs' as they were and the accumulator with the pieces the stores wrote. The pieces are found by the run. -/
noncomputable def kernelRun0_A (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : cond0_0 i) (hc1 : ¬cond0_1 i)
    (x0 : Vec F S1x2048x1024 .bf16) (x1 : Vec F S1x128x1024 .bf16) :
    { LS0 : List (View.Piece (Elt F) S2048x128 .f32) //
      ∀ (xi2 : Vec F S1x2048x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨?_, fun xi2 E K => ?run⟩
  case run =>
    simp only [cc0__z_kernel_eq_skeleton]; unfold cc0__z_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Acc

end
-- ==== Proof.K0RunB.lean ====
/-
  The first kernel region's body run whole in the case where one block's product is added to the accumulator the point before left (block coordinates 1 and 2); nothing is stored into the output block.
-/
import proofs.«171241_j26474178412911_2_alg».proof.Proof.K0RunA

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body in this case on whole staging memrefs: the inputs' at their contents, the output's (not stored into here) handed back as found, the accumulator at what the point before left; it runs to the continuation holding the inputs' as they were and the accumulator with the pieces the stores wrote. The pieces are found by the run. -/
noncomputable def kernelRun0_B (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : ¬cond0_1 i)
    (x0 : Vec F S1x2048x1024 .bf16) (x1 : Vec F S1x128x1024 .bf16) (xs0 : Vec F S2048x128 .f32) :
    { LS0 : List (View.Piece (Elt F) S2048x128 .f32) //
      ∀ (xi2 : Vec F S1x2048x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨?_, fun xi2 E K => ?run⟩
  case run =>
    simp only [cc0__z_kernel_eq_skeleton]; unfold cc0__z_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg5.eq_unread hfs0; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Acc

end
-- ==== Proof.K0RunC.lean ====
/-
  The first kernel region's body run whole in the case where the last block's product is added to the accumulator the point before left and the sum is stored, narrowed, into the output block (block coordinate 3).
-/
import proofs.«171241_j26474178412911_2_alg».proof.Proof.K0RunB

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body in this case on whole staging memrefs: the inputs' at their contents, the output's at anything, the accumulator at what the point before left; it runs to the continuation holding the inputs' as they were and the accumulator and the output's buffer with the pieces the stores wrote. The pieces are found by the run. -/
noncomputable def kernelRun0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i)
    (x0 : Vec F S1x2048x1024 .bf16) (x1 : Vec F S1x128x1024 .bf16) (xs0 : Vec F S2048x128 .f32) :
    Σ' (L2 : List (View.Piece (Elt F) S1x2048x128 .bf16)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__z_kernel i arg2 harg2 arg3 harg3 arg4 harg4 arg5 harg5) K } := by
  refine ⟨?_, ?_, fun E K => ?run⟩
  case run =>
    simp only [cc0__z_kernel_eq_skeleton]; unfold cc0__z_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Acc

end
-- ==== Proof.K0Frame.lean ====
/-
  The first kernel region point by point. What each case of the body leaves in the accumulator (and, where the
  output block is stored, in the output window's buffer) is the run's pieces read back; what the accumulator and
  the output buffer hold after point n is then a recursion on n: the reset case starts from nothing, the other
  two from what point n - 1 left in the accumulator. The region's invariant carries the accumulator at that value
  from one point to the next. From these: the pipeline's proof data and the body obligation at every point.
-/
import proofs.«171241_j26474178412911_2_alg».proof.Proof.K0RunC

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover0_A (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : cond0_0 i) (hc1 : ¬cond0_1 i) (x0 : Vec F S1x2048x1024 .bf16) (x1 : Vec F S1x128x1024 .bf16) (y : S2048x128.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S2048x128.size (by sl_kernel_rfl) y
/-- The accumulator after the reset case: zero plus the block's product. -/
def sout0_A (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : cond0_0 i) (hc1 : ¬cond0_1 i) (x0 : Vec F S1x2048x1024 .bf16) (x1 : Vec F S1x128x1024 .bf16) : Vec F S2048x128 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : ¬cond0_1 i) (x0 : Vec F S1x2048x1024 .bf16) (x1 : Vec F S1x128x1024 .bf16) (xs0 : Vec F S2048x128 .f32) (y : S2048x128.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S2048x128.size (by sl_kernel_rfl) y
/-- The accumulator after an accumulating case: what it held plus the block's product. -/
def sout0_B (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : ¬cond0_1 i) (x0 : Vec F S1x2048x1024 .bf16) (x1 : Vec F S1x128x1024 .bf16) (xs0 : Vec F S2048x128 .f32) : Vec F S2048x128 .f32 :=
  VS0.read (Elt F) (VS0.writes (Elt F) VS0.junk (kernelRun0_B c i arg2 harg2 arg3 harg3 arg4 harg4 arg5 harg5 hc0 hc1 x0 x1 xs0).1)

theorem cover0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) (y : S1x2048x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x2048x128.size (by sl_kernel_rfl) y
/-- The output window's buffer after the storing case. -/
def out0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) : Vec F S1x2048x128 .bf16 :=
  VO0_2.read (Elt F) (VO0_2.writes (Elt F) VO0_2.junk (kernelRun0_C c i arg2 harg2 arg3 harg3 arg4 harg4 arg5 harg5 hc0 hc1 x0 x1 xs0).1)
theorem scover0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y
/-- The accumulator after the storing case. -/
def sout0_C (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) : Vec F S2048x128 .f32 :=
  VS0.read (Elt F) (VS0.writes (Elt F) VS0.junk (kernelRun0_C c i arg2 harg2 arg3 harg3 arg4 harg4 arg5 harg5 hc0 hc1 x0 x1 xs0).2.1)

/-- Where the output block is not stored its component below is never consulted: any value will do. -/
def noOut0 : Vec F S1x2048x128 .bf16 := VO0_2.read (Elt F) VO0_2.junk

section
variable (V : (c : Dev nD) → (b : Ref sig .tc) → Buf (Elt F) ((c : Thread nD τ).loc b))

/-! ## Point by point -/

/-- What the output window's buffer and the accumulator hold after the body at position `n`. -/
def outsAt0 (c : Dev nD) : (n : ℕ) → n < cfg0.N → Vec F S1x2048x128 .bf16 × Vec F S2048x128 .f32
  | 0, hn => (noOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (noOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (noOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (noOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (noOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point nothing is said of the accumulator;
    afterwards it holds what the point before left. The scoped buffers the region does not touch and the generator
    register ride along. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the closed forms say which case the point is in;
    the invariant hands over the accumulator at what the point before left (at anything before the first point) and
    takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · have h1 : ¬t.val % 4 = 3 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A c _ _ _ _ _ _ _ _ _ _ _ _ _)
          iexact Hrest
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives everything back, the accumulator's value forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, Hrest⟩, Hg⟩
  isplitl [HS0 Hrest]
  · isplitl [HS0]
    · iexists _; iexact HS0
    iexact Hrest
  iexact Hg

end

end Cert.KernelIdeal.Acc

end
-- ==== Proof.K0Closed.lean ====
/-
  What each case of the first region's body leaves, in closed form: the reset case leaves zero plus the block's
  product; the accumulating cases leave what the accumulator held plus the block's product; the storing case
  stores that sum, narrowed, into the output block. Every load and store is of a whole buffer, so a load reads
  the contents and a store leaves its payload.
-/
import proofs.«171241_j26474178412911_2_alg».proof.Proof.K0Frame
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := by funext a; fin_cases a <;> rfl
theorem zeros3 : (![0, 0, 0] : Fin 3 → Nat) = fun _ => 0 := by funext a; fin_cases a <;> rfl

theorem sout0_A_eq (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : cond0_0 i) (hc1 : ¬cond0_1 i) (x0 : Vec F S1x2048x1024 .bf16) (x1 : Vec F S1x128x1024 .bf16) :
    sout0_A c i arg2 harg2 arg3 harg3 arg4 harg4 arg5 harg5 hc0 hc1 x0 x1 = k0_pay2 (k0_pay1 (F := F)) x0 x1 := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S2048x128) zeros2]
  rw [View.readCov_unit_zero (S := S2048x128) _ zeros2]
  simp only [View.readAt_eq_ld, harg2.read_unread, harg3.read_unread, View.ld_unit_zero (S := S1x2048x1024) zeros3, View.ld_unit_zero (S := S1x128x1024) zeros3]

theorem sout0_B_eq (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : ¬cond0_1 i) (x0 : Vec F S1x2048x1024 .bf16) (x1 : Vec F S1x128x1024 .bf16) (xs0 : Vec F S2048x128 .f32) :
    sout0_B c i arg2 harg2 arg3 harg3 arg4 harg4 arg5 harg5 hc0 hc1 x0 x1 xs0 = k0_pay2 xs0 x0 x1 := by
  unfold sout0_B
  rw [View.read_writes_eq_canon _ _ _ (scover0_B c i arg2 harg2 arg3 harg3 arg4 harg4 arg5 harg5 hc0 hc1 x0 x1 xs0)]
  unfold kernelRun0_B
  dsimp only
  sl_unfold_words
  rw [View.canon_cons_unit_zero (S := S2048x128) zeros2]
  simp only [View.readAt_eq_ld, harg2.read_unread, harg3.read_unread, harg5.read_unread, View.ld_unit_zero (S := S1x2048x1024) zeros3, View.ld_unit_zero (S := S1x128x1024) zeros3, View.ld_unit_zero (S := S2048x128) zeros2]

theorem sout0_C_eq (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) :
    sout0_C c i arg2 harg2 arg3 harg3 arg4 harg4 arg5 harg5 hc0 hc1 x0 x1 xs0 = k0_pay2 xs0 x0 x1 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_cons_unit_zero (S := S2048x128) zeros2]
  simp only [View.readAt_eq_ld, harg2.read_unread, harg3.read_unread, harg5.read_unread, View.ld_unit_zero (S := S1x2048x1024) zeros3, View.ld_unit_zero (S := S1x128x1024) zeros3, View.ld_unit_zero (S := S2048x128) zeros2]

theorem out0_C_eq (c : Dev nD) (i : grid0.Coords) (arg2 : Memref sig .tc .vmem S1x2048x1024 .bf16) (harg2 : arg2.IsWhole) (arg3 : Memref sig .tc .vmem S1x128x1024 .bf16) (harg3 : arg3.IsWhole) (arg4 : Memref sig .tc .vmem S1x2048x128 .bf16) (harg4 : arg4.IsWhole) (arg5 : Memref sig .tc .vmem S2048x128 .f32) (harg5 : arg5.IsWhole) (hc0 : ¬cond0_0 i) (hc1 : cond0_1 i) (x0 : Vec F S1x2048x1024 .bf16) (x1 : Vec F S1x128x1024 .bf16) (xs0 : Vec F S2048x128 .f32) :
    out0_C c i arg2 harg2 arg3 harg3 arg4 harg4 arg5 harg5 hc0 hc1 x0 x1 xs0 = k0_pay3 (k0_pay2 xs0 x0 x1) := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_cons_unit_zero (S := S1x2048x128) zeros3]
  rw [View.readCov_unit_zero (S := S2048x128) _ zeros2]
  simp only [View.readAt_eq_ld, harg2.read_unread, harg3.read_unread, harg5.read_unread, View.ld_unit_zero (S := S1x2048x1024) zeros3, View.ld_unit_zero (S := S1x128x1024) zeros3, View.ld_unit_zero (S := S2048x128) zeros2]

end Cert.KernelIdeal.Acc

end
-- ==== Proof.LibDotRowRow.lean ====
/-
  A contraction of the SECOND axes of two matrices, read as a plain sum.

  Take operands of shapes [A, K] and [B, K] and a result of shape [A, B], with dimension numbers that say: no batch
  axes; each operand keeps its axis 0; axis 1 of the left is contracted against axis 1 of the right (the product of the
  left matrix with the TRANSPOSE of the right one, without the transpose being formed). The contraction's own index set
  is then a one-axis shape of extent K, and the sum over it of x (left index) * y (right index) at the result index
  (p, q) is ∑ k < K, x (p, k) * y (q, k): on its kept axis each operand reads the result's coordinate (the left the row
  coordinate, the right the column coordinate), on its contracted axis the contraction's one coordinate.

  Stated for ANY record with these dimension numbers and for any A, K, B. The extended reals enter only as the type the
  products are taken in: nothing here uses more than the sum's re-indexing along a bijection.
-/
import Idealize.ShloMosaic.Lib.ValueIdx
import Idealize.ShloMosaic.PureOps.Ideal.Laws

open scoped BigOperators

namespace Cert.RowRowDot

open Idealize.ShloMosaic Idealize.ShloMosaic.ValueIdx

variable {A K B : Nat} (d : DotDims ⟨2, ![A, K]⟩ ⟨2, ![B, K]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 0) the right operand's index is the result's COLUMN coordinate: the result's axes are the
    batch axes (none), then the left's kept axes (one), then the right's kept axes, so the right's kept axis is axis 1
    of the result. -/
theorem rhs_row (hlb : d.lhsBatch = []) (hln : d.lhsNonContracting = [0]) (hrb : d.rhsBatch = [])
    (hrn : d.rhsNonContracting = [0]) (j : (⟨2, ![A, B]⟩ : Shape).Idx) (k : d.contr.Idx) :
    (d.rhsIdx j k 0).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row p of the left and row q of the right. -/
theorem sum_eq (hlb : d.lhsBatch = []) (hln : d.lhsNonContracting = [0]) (hlc : d.lhsContracting = [1])
    (hrb : d.rhsBatch = []) (hrn : d.rhsNonContracting = [0]) (hrc : d.rhsContracting = [1])
    (hr : d.contr.rank = 1) (hs : d.contr.size ⟨0, by omega⟩ = K)
    (x : (⟨2, ![A, K]⟩ : Shape).Idx → EReal) (y : (⟨2, ![B, K]⟩ : Shape).Idx → EReal) (p : Fin A) (q : Fin B) :
    ∑ k : d.contr.Idx, x (d.lhsIdx (ix2 p q) k) * y (d.rhsIdx (ix2 p q) k) = ∑ k : Fin K, x (ix2 p k) * y (ix2 q k) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact rhs_row d hlb hln hrb hrn _ _
    | ⟨1, _⟩ => exact (d.rhsIdx_val_of_single hrc _ _).trans hk)
  rw [el, er]

end Cert.RowRowDot
-- ==== Proof.KPay.lean ====
/-
  The bodies' arithmetic at the ideal instance, read at an index. A block's product with the transposed second
  block is a plain sum over the contracted axis; the unit leading axis of a block is dropped and added back by
  casts that read through; a change of float format is the identity; the bias row is repeated down the rows.
-/
import proofs.«171241_j26474178412911_2_alg».proof.Proof.Gen.KernelIdeal.Skeleton
import proofs.«171241_j26474178412911_2_alg».proof.Proof.LibDotRowRow
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Acc

open Idealize.ShloMosaic Idealize.ShloMosaic.ValueIdx
open Cert.KernelIdeal Cert.KernelIdeal.Gen

/-- An index of a block with a unit leading axis, from the index of the block without it. -/
theorem cons_ix2 {A B : Nat} (p : Fin A) (q : Fin B) :
    (Fin.cons (⟨0, Nat.one_pos⟩ : Fin 1) (ix2 p q : (⟨2, ![A, B]⟩ : Shape).Idx) : (⟨3, ![1, A, B]⟩ : Shape).Idx) = ix3 (⟨0, Nat.one_pos⟩ : Fin 1) p q := by
  funext a
  match a with
  | ⟨0, _⟩ => rfl
  | ⟨1, _⟩ => rfl
  | ⟨2, _⟩ => rfl

/-- and back. -/
theorem succ_ix3 {A B : Nat} (u : Fin 1) (p : Fin A) (q : Fin B) :
    (fun a : Fin 2 => (ix3 u p q : (⟨3, ![1, A, B]⟩ : Shape).Idx) a.succ) = (ix2 p q : (⟨2, ![A, B]⟩ : Shape).Idx) := by
  funext a
  match a with
  | ⟨0, _⟩ => rfl
  | ⟨1, _⟩ => rfl

theorem k0_pay1_apply (j : S2048x128.Idx) : k0_pay1 (F := Ideal) j = 0 := by
  unfold k0_pay1
  rw [shapeCast_self]
  show Ideal.ofBits .f32 0x00000000#32 = 0
  exact Ideal.ofBits_zero_f32

theorem k0_pay2_apply (v3 : Vec Ideal S2048x128 .f32) (v4 : Vec Ideal S1x2048x1024 .bf16) (v6 : Vec Ideal S1x128x1024 .bf16) (s : Fin 2048) (r : Fin 128) :
    k0_pay2 (F := Ideal) v3 v4 v6 (ix2 s r) = v3 (ix2 s r) + ∑ k : Fin 1024, v4 (ix3 (⟨0, Nat.one_pos⟩ : Fin 1) s k) * v6 (ix3 (⟨0, Nat.one_pos⟩ : Fin 1) r k) := by
  unfold k0_pay2
  rw [shapeCast_self]
  show v3 (ix2 s r) + FloatOps.matmul _ none _ _ (constant (F := Ideal) S2048x128 .f32 0x00000000#32) (ix2 s r) = _
  rw [Ideal.matmul_constant_zero_apply]
  rw [Cert.RowRowDot.sum_eq (A := 2048) (K := 1024) (B := 128) dot_S2048x1024_S128x1024_S2048x128_1_1_0_0_n_n rfl rfl rfl rfl rfl rfl rfl rfl]
  refine congrArg _ (Finset.sum_congr rfl fun k _ => ?_)
  rw [shapeCast_dropUnit_apply, shapeCast_dropUnit_apply]
  exact congrArg₂ (· * ·) (congrArg v4 (cons_ix2 s k)) (congrArg v6 (cons_ix2 r k))

theorem k0_pay3_apply (v16 : Vec Ideal S2048x128 .f32) (u : Fin 1) (s : Fin 2048) (r : Fin 128) :
    k0_pay3 (F := Ideal) v16 (ix3 u s r) = v16 (ix2 s r) := by
  unfold k0_pay3
  rw [shapeCast_addUnit_apply, succ_ix3]
  rfl

theorem k1_pay1_apply (v16 : Vec Ideal S1x2048x128 .bf16) (v18 : Vec Ideal S1024x128 .bf16) (s : Fin 2048) (o : Fin 1024) :
    k1_pay1 (F := Ideal) v16 v18 (ix2 s o) = ∑ r : Fin 128, v16 (ix3 (⟨0, Nat.one_pos⟩ : Fin 1) s r) * v18 (ix2 o r) := by
  unfold k1_pay1
  rw [shapeCast_self]
  show FloatOps.matmul _ none _ _ (constant (F := Ideal) S2048x1024 .f32 0x00000000#32) (ix2 s o) = _
  rw [Ideal.matmul_constant_zero_apply]
  rw [Cert.RowRowDot.sum_eq (A := 2048) (K := 128) (B := 1024) dot_S2048x128_S1024x128_S2048x1024_1_1_0_0_n_n rfl rfl rfl rfl rfl rfl rfl rfl]
  refine Finset.sum_congr rfl fun k _ => ?_
  rw [shapeCast_dropUnit_apply, shapeCast_self]
  exact congrArg (· * v18 (ix2 o k)) (congrArg v16 (cons_ix2 s k))

theorem k1_pay2_apply (v3 : Vec Ideal S2048x1024 .f32) (v4 : Vec Ideal S1x2048x512 .bf16) (v6 : Vec Ideal S1024x512 .bf16) (s : Fin 2048) (o : Fin 1024) :
    k1_pay2 (F := Ideal) v3 v4 v6 (ix2 s o) = v3 (ix2 s o) + ∑ k : Fin 512, v4 (ix3 (⟨0, Nat.one_pos⟩ : Fin 1) s k) * v6 (ix2 o k) := by
  unfold k1_pay2
  rw [shapeCast_self]
  show v3 (ix2 s o) + FloatOps.matmul _ none _ _ (constant (F := Ideal) S2048x1024 .f32 0x00000000#32) (ix2 s o) = _
  rw [Ideal.matmul_constant_zero_apply]
  rw [Cert.RowRowDot.sum_eq (A := 2048) (K := 512) (B := 1024) dot_S2048x512_S1024x512_S2048x1024_1_1_0_0_n_n rfl rfl rfl rfl rfl rfl rfl rfl]
  refine congrArg _ (Finset.sum_congr rfl fun k _ => ?_)
  rw [shapeCast_dropUnit_apply, shapeCast_self]
  exact congrArg (· * v6 (ix2 o k)) (congrArg v4 (cons_ix2 s k))

theorem k1_pay3_apply (v16 : Vec Ideal S2048x1024 .f32) (v17 : Vec Ideal S1x1024 .f32) (u : Fin 1) (s : Fin 2048) (o : Fin 1024) :
    k1_pay3 (F := Ideal) v16 v17 (ix3 u s o) = v16 (ix2 s o) + v17 (ix2 (⟨0, Nat.one_pos⟩ : Fin 1) o) := by
  unfold k1_pay3
  rw [shapeCast_addUnit_apply, succ_ix3, shapeCast_self]
  show v16 (ix2 s o) + broadcastTo S2048x1024 v17 broadcasts_S1x1024_S2048x1024 (ix2 s o) = _
  rw [broadcastTo_apply v17 broadcasts_S1x1024_S2048x1024 (ix2 s o) (ix2 (⟨0, Nat.one_pos⟩ : Fin 1) o) (by
    intro a
    match a with
    | ⟨0, _⟩ => rfl
    | ⟨1, _⟩ => rfl)]

end Cert.KernelIdeal.Acc

end
-- ==== Proof.LibBlockedSum.lean ====
/-
  A sum over `Fin N` accumulated block by block. Cut `0, …, N − 1` into consecutive blocks of `B` indices. The partial sum
  over the indices below `B · k` is empty at `k = 0`; passing from `k` to `k + 1` adds the sum over the `B` indices
  `B · k, …, B · k + B − 1` of block `k`; and once `B · k` reaches `N` the partial sum is the whole sum. The three
  statements hold in any additive commutative monoid (no subtraction, no cancellation), so they apply to the extended
  reals as they are.
-/
import Mathlib.Algebra.BigOperators.Fin
import Mathlib.Tactic.Common

open scoped BigOperators

namespace Cert.LibBlockedSum

variable {M : Type*} [AddCommMonoid M] {N : ℕ}

/-- The `j`-th index of block `k` lies below `N` when blocks `0, …, k` do. -/
theorem block_lt {B k : ℕ} (h : B * (k + 1) ≤ N) (j : Fin B) : B * k + j.val < N := by
  have hj := j.isLt
  have e : B * (k + 1) = B * k + B := Nat.mul_add_one B k
  omega

/-- Before the first block nothing has been summed. -/
theorem sum_lt_zero (B : ℕ) (f : Fin N → M) :
    ∑ i ∈ Finset.univ.filter (fun i : Fin N => i.val < B * 0), f i = 0 := by
  rw [Finset.filter_false_of_mem fun i _ => by simp]
  exact Finset.sum_empty

/-- The partial sum below `B · (k + 1)` is the partial sum below `B · k` plus the sum over block `k`. -/
theorem sum_lt_succ (B k : ℕ) (h : B * (k + 1) ≤ N) (f : Fin N → M) :
    ∑ i ∈ Finset.univ.filter (fun i : Fin N => i.val < B * (k + 1)), f i
      = (∑ i ∈ Finset.univ.filter (fun i : Fin N => i.val < B * k), f i) + ∑ j : Fin B, f ⟨B * k + j.val, block_lt h j⟩ := by
  have e : B * (k + 1) = B * k + B := Nat.mul_add_one B k
  -- the indices below `B · (k + 1)` are those below `B · k` together with those of block `k`
  have hsplit : (Finset.univ.filter fun i : Fin N => i.val < B * (k + 1))
      = (Finset.univ.filter fun i : Fin N => i.val < B * k)
        ∪ (Finset.univ.filter fun i : Fin N => B * k ≤ i.val ∧ i.val < B * (k + 1)) := by
    ext i
    simp only [Finset.mem_filter, Finset.mem_univ, true_and, Finset.mem_union]
    omega
  have hdisj : Disjoint (Finset.univ.filter fun i : Fin N => i.val < B * k)
      (Finset.univ.filter fun i : Fin N => B * k ≤ i.val ∧ i.val < B * (k + 1)) := by
    rw [Finset.disjoint_filter]
    intro i _ h1 h2
    omega
  rw [hsplit, Finset.sum_union hdisj]
  congr 1
  -- block `k` is the image of `Fin B` under `j ↦ B · k + j`
  symm
  refine Finset.sum_bij (fun j _ => (⟨B * k + j.val, block_lt h j⟩ : Fin N)) ?_ ?_ ?_ ?_
  · intro j _
    have hj := j.isLt
    simp only [Finset.mem_filter, Finset.mem_univ, true_and]
    omega
  · intro a _ b _ hab
    have := congrArg Fin.val hab
    simp only at this
    exact Fin.ext (by omega)
  · intro i hi
    simp only [Finset.mem_filter, Finset.mem_univ, true_and] at hi
    exact ⟨⟨i.val - B * k, by omega⟩, Finset.mem_univ _, Fin.ext (by simp only; omega)⟩
  · intro j _
    rfl

/-- Once the blocks cover `0, …, N − 1` the partial sum is the whole sum. -/
theorem sum_lt_all (B k : ℕ) (h : N ≤ B * k) (f : Fin N → M) :
    ∑ i ∈ Finset.univ.filter (fun i : Fin N => i.val < B * k), f i = ∑ i, f i := by
  rw [Finset.filter_true_of_mem fun i _ => lt_of_lt_of_le i.isLt h]

end Cert.LibBlockedSum
-- ==== Proof.K0Value.lean ====
/-
  The first kernel region's value at the ideal instance. At point t = 4·b + k the two input blocks are rows of
  batch b restricted to the k-th block of 1024 contracted indices, so after that point the accumulator holds, at
  (s, r), the sum over the contracted indices below 1024·(k + 1) of x(b, s, i) · w(b, r, i): zero plus the first
  block at k = 0, the previous partial sum plus the next block afterwards. At k = 3 that is the whole sum, which the
  body stores into block b of the output; the four batches' blocks tile the output array.
-/
import proofs.«171241_j26474178412911_2_alg».proof.Proof.K0Closed
import proofs.«171241_j26474178412911_2_alg».proof.Proof.KPay
import proofs.«171241_j26474178412911_2_alg».proof.Proof.LibBlockedSum
import Idealize.ShloMosaic.Lib.Pipeline.Value

set_option maxRecDepth 16384

noncomputable section

namespace Cert.KernelIdeal.Acc

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The windows' block indices over the grid: the batch, and for the inputs the block of the contracted axis. -/
theorem idx_facts0 : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0 :=
  (by decide +kernel : ∀ t : Fin grid0.N, _)

/-- The left operand as the region finds it, -/
abbrev xb0 (c : Dev nD) : S4x2048x4096.Idx → EReal := V c main_v11
/-- and the right one. -/
abbrev wb0 (c : Dev nD) : S4x128x4096.Idx → EReal := V c main_v12

/-- The left input block at a point, read at an index. -/
theorem iblk0_0_apply (c : Dev nD) (t : Fin cfg0.N) (u : Fin 1) (s : Fin 2048) (j : Fin 1024) (b : Fin 4) (i : Fin 4096)
    (hb : b.val = t.val / 4) (hi : i.val = 1024 * (t.val % 4) + j.val) :
    (iblk0 V c 0 t : Vec Ideal S1x2048x1024 .bf16) (ix3 u s j) = xb0 V c (ix3 b s i) := by
  unfold iblk0
  show (V c main_v11 : S4x2048x4096.Idx → EReal) (((cfg0.win 0).blk t).view.emb (ix3 u s j)) = _
  refine congrArg _ ?_
  obtain ⟨e0, e1, e2, -⟩ := idx_facts0 t
  funext a; apply Fin.ext
  match a with
  | ⟨0, _⟩ => show win0_0.index t (0 : Fin 3) * 1 + 1 * u.val = b.val; have := u.isLt; omega
  | ⟨1, _⟩ => show win0_0.index t (1 : Fin 3) * 2048 + 1 * s.val = s.val; omega
  | ⟨2, _⟩ => show win0_0.index t (2 : Fin 3) * 1024 + 1 * j.val = i.val; omega

/-- The right input block at a point, read at an index. -/
theorem iblk0_1_apply (c : Dev nD) (t : Fin cfg0.N) (u : Fin 1) (r : Fin 128) (j : Fin 1024) (b : Fin 4) (i : Fin 4096)
    (hb : b.val = t.val / 4) (hi : i.val = 1024 * (t.val % 4) + j.val) :
    (iblk0 V c 1 t : Vec Ideal S1x128x1024 .bf16) (ix3 u r j) = wb0 V c (ix3 b r i) := by
  unfold iblk0
  show (V c main_v12 : S4x128x4096.Idx → EReal) (((cfg0.win 1).blk t).view.emb (ix3 u r j)) = _
  refine congrArg _ ?_
  obtain ⟨-, -, -, e0, e1, e2, -⟩ := idx_facts0 t
  funext a; apply Fin.ext
  match a with
  | ⟨0, _⟩ => show win0_1.index t (0 : Fin 3) * 1 + 1 * u.val = b.val; have := u.isLt; omega
  | ⟨1, _⟩ => show win0_1.index t (1 : Fin 3) * 128 + 1 * r.val = r.val; omega
  | ⟨2, _⟩ => show win0_1.index t (2 : Fin 3) * 1024 + 1 * j.val = i.val; omega

/-- The accumulator after a resetting point: zero plus the block's product. -/
theorem acc_A0 (c : Dev nD) (t : Fin cfg0.N) (h0 : t.val % 4 = 0) (h1 : ¬t.val % 4 = 3) :
    (outsAt0 V c t.val t.isLt).2 = k0_pay2 (F := Ideal) (k0_pay1 (F := Ideal)) (iblk0 V c 0 t) (iblk0 V c 1 t) := by
  have h2 : (outsAt0 V c t.val t.isLt).2 = sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t) := by
    rw [outsAt0_A V c t h0 h1]
  exact h2.trans (sout0_A_eq c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t))

/-- The accumulator after any other point: what the point before left plus the block's product. -/
theorem acc_B0 (c : Dev nD) (t : Fin cfg0.N) (h0 : ¬t.val % 4 = 0) :
    (outsAt0 V c t.val t.isLt).2 = k0_pay2 (F := Ideal) (outsAt0 V c (t.val - 1) (Nat.lt_of_le_of_lt (Nat.sub_le _ _) t.isLt)).2 (iblk0 V c 0 t) (iblk0 V c 1 t) := by
  by_cases h1 : t.val % 4 = 3
  · have h2 : (outsAt0 V c t.val t.isLt).2 = sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2 := by
      rw [outsAt0_C V c t h0 h1]
    exact h2.trans (sout0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2)
  · have h2 : (outsAt0 V c t.val t.isLt).2 = sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2 := by
      rw [outsAt0_B V c t h0 h1]
    exact h2.trans (sout0_B_eq c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2)

/-- The partial sum over the contracted indices below `1024 * k`. -/
def part0 (xb : S4x2048x4096.Idx → EReal) (wb : S4x128x4096.Idx → EReal) (b : Fin 4) (k : ℕ) (s : Fin 2048) (r : Fin 128) : EReal :=
  ∑ i ∈ Finset.univ.filter (fun i : Fin 4096 => i.val < 1024 * k), xb (ix3 b s i) * wb (ix3 b r i)

/-- THE ACCUMULATOR after point `t`: the partial sum through block `t % 4` of batch `t / 4`. -/
theorem acc0 (c : Dev nD) : ∀ (n : ℕ) (t : Fin cfg0.N), t.val = n → ∀ (b : Fin 4) (k : ℕ), b.val = t.val / 4 → k = t.val % 4 → ∀ (s : Fin 2048) (r : Fin 128),
    (outsAt0 V c t.val t.isLt).2 (ix2 s r) = part0 (xb0 V c) (wb0 V c) b (k + 1) s r := by
  intro n
  induction n with
  | zero =>
    intro t ht b k hb hk s r
    have h0 : t.val % 4 = 0 := by omega
    have hk0 : k = 0 := by omega
    subst hk0
    rw [acc_A0 V c t h0 (by omega), k0_pay2_apply, k0_pay1_apply, zero_add]
    unfold part0
    rw [Cert.LibBlockedSum.sum_lt_succ 1024 0 (by omega), Cert.LibBlockedSum.sum_lt_zero]
    refine Eq.trans ?_ (zero_add _).symm
    refine Finset.sum_congr rfl fun j _ => ?_
    have hj := j.isLt
    rw [iblk0_0_apply V c t _ s j b ⟨1024 * 0 + j.val, by omega⟩ hb (by show 1024 * 0 + j.val = _; omega),
      iblk0_1_apply V c t _ r j b ⟨1024 * 0 + j.val, by omega⟩ hb (by show 1024 * 0 + j.val = _; omega)]
  | succ n ih =>
    intro t ht b k hb hk s r
    have hN : t.val < 16 := lt_of_lt_of_eq t.isLt (show cfg0.N = 16 from N_0)
    by_cases h0 : t.val % 4 = 0
    · have hk0 : k = 0 := by omega
      subst hk0
      rw [acc_A0 V c t h0 (by omega), k0_pay2_apply, k0_pay1_apply, zero_add]
      unfold part0
      rw [Cert.LibBlockedSum.sum_lt_succ 1024 0 (by omega), Cert.LibBlockedSum.sum_lt_zero]
      refine Eq.trans ?_ (zero_add _).symm
      refine Finset.sum_congr rfl fun j _ => ?_
      have hj := j.isLt
      rw [iblk0_0_apply V c t _ s j b ⟨1024 * 0 + j.val, by omega⟩ hb (by show 1024 * 0 + j.val = _; omega),
        iblk0_1_apply V c t _ r j b ⟨1024 * 0 + j.val, by omega⟩ hb (by show 1024 * 0 + j.val = _; omega)]
    · have hprev := ih ⟨t.val - 1, Nat.lt_of_le_of_lt (Nat.sub_le _ _) t.isLt⟩ (by show t.val - 1 = n; omega) b (k - 1)
        (by rw [hb]; show t.val / 4 = (t.val - 1) / 4; omega) (by show k - 1 = (t.val - 1) % 4; omega) s r
      have hk1 : k - 1 + 1 = k := by omega
      rw [hk1] at hprev
      rw [acc_B0 V c t h0, k0_pay2_apply]
      rw [show (outsAt0 V c (t.val - 1) (Nat.lt_of_le_of_lt (Nat.sub_le _ _) t.isLt)).2 (ix2 s r) = part0 (xb0 V c) (wb0 V c) b k s r from hprev]
      unfold part0
      rw [Cert.LibBlockedSum.sum_lt_succ 1024 k (by omega)]
      refine congrArg (_ + ·) (Finset.sum_congr rfl fun j _ => ?_)
      have hj := j.isLt
      rw [iblk0_0_apply V c t _ s j b ⟨1024 * k + j.val, by omega⟩ hb (by show 1024 * k + j.val = _; omega),
        iblk0_1_apply V c t _ r j b ⟨1024 * k + j.val, by omega⟩ hb (by show 1024 * k + j.val = _; omega)]

/-- What the first region leaves in its output array: z(b, s, r) = ∑ i, x(b, s, i) · w(b, r, i). -/
def Z0 (c : Dev nD) : S4x2048x128.Idx → EReal := fun y =>
  ∑ i : Fin 4096, xb0 V c (ix3 (y 0) (y 1) i) * wb0 V c (ix3 (y 0) (y 2) i)

/-- Where the output block is stored it takes the accumulator, the unit axis added. -/
theorem out_eq_acc0 (c : Dev nD) (t : Fin cfg0.N) (h0 : ¬t.val % 4 = 0) (h1 : t.val % 4 = 3) :
    (outsAt0 V c t.val t.isLt).1 = k0_pay3 (F := Ideal) (outsAt0 V c t.val t.isLt).2 := by
  have e1 : (outsAt0 V c t.val t.isLt).1 = out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2 := by
    rw [outsAt0_C V c t h0 h1]
  have e2 : (outsAt0 V c t.val t.isLt).2 = sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2 := by
    rw [outsAt0_C V c t h0 h1]
  rw [e1, e2, out0_C_eq, sout0_C_eq]

/-- WHAT A STORING POINT WRITES BACK is its block of `Z0`. -/
theorem flushed0_eq (c : Dev nD) (t : Fin cfg0.N) (hf : (cfg0.win 2).flush t = true) :
    (dat0 V c).flushed 2 t = ((cfg0.win 2).blk t).view.read (Elt Ideal) (Z0 V c) := by
  have h1 : t.val % 4 = 3 := (flush0_2 t).mp hf
  have h0 : ¬t.val % 4 = 0 := by omega
  have hN : t.val < 16 := lt_of_lt_of_eq t.isLt (show cfg0.N = 16 from N_0)
  show (cfg0.win 2).cut (grid0.coords t) ((dat0 V c).after 2 t) = _
  rw [after0_2, out_eq_acc0 V c t h0 h1]
  funext y
  obtain ⟨u, s, r, rfl⟩ : ∃ (u : Fin 1) (s : Fin 2048) (r : Fin 128), y = ix3 u s r := ⟨y 0, y 1, y 2, eq_ix3 y⟩
  show k0_pay3 (F := Ideal) _ (ix3 u s r) = Z0 V c (((cfg0.win 2).blk t).view.emb (ix3 u s r))
  rw [k0_pay3_apply, acc0 V c t.val t rfl ⟨t.val / 4, by omega⟩ 3 rfl h1.symm s r]
  unfold part0
  rw [Cert.LibBlockedSum.sum_lt_all 1024 4 (by omega)]
  obtain ⟨-, -, -, -, -, -, e0, e1, e2⟩ := idx_facts0 t
  have hemb : ((cfg0.win 2).blk t).view.emb (ix3 u s r) = (ix3 (⟨t.val / 4, by omega⟩ : Fin 4) s r : S4x2048x128.Idx) := by
    funext a; apply Fin.ext
    match a with
    | ⟨0, _⟩ => show win0_2.index t (0 : Fin 3) * 1 + 1 * u.val = t.val / 4; have := u.isLt; omega
    | ⟨1, _⟩ => show win0_2.index t (1 : Fin 3) * 2048 + 1 * s.val = s.val; omega
    | ⟨2, _⟩ => show win0_2.index t (2 : Fin 3) * 128 + 1 * r.val = r.val; omega
  rw [hemb]
  rfl
theorem mem_blk0 (t : Fin cfg0.N) (i : S4x2048x128.Idx) :
    i ∈ ((cfg0.win 2).blk t).view.set ↔ ∀ a : Fin 3, win0_2.index t a * S1x2048x128.size a ≤ (i a).val ∧ (i a).val < win0_2.index t a * S1x2048x128.size a + S1x2048x128.size a := by
  show i ∈ ((View.whole main_v15).slice (win0_2.rect t)).set ↔ _
  rw [View.set_slice_whole, Rect.mem_set_unit]
  exact Iff.rfl

/-- Every index of the output array lies in the block of its batch's storing point. -/
theorem cover0 (i : S4x2048x128.Idx) : ∃ t : Fin cfg0.N, (cfg0.win 2).flush t = true ∧ i ∈ ((cfg0.win 2).blk t).view.set := by
  have hi0 : (i 0).val < 4 := (i 0).isLt
  have hi1 : (i 1).val < 2048 := (i 1).isLt
  have hi2 : (i 2).val < 128 := (i 2).isLt
  refine ⟨⟨4 * (i 0).val + 3, by rw [show cfg0.N = 16 from N_0]; omega⟩, (flush0_2 _).mpr (by show (4 * (i 0).val + 3) % 4 = 3; omega), ?_⟩
  rw [mem_blk0]
  obtain ⟨-, -, -, -, -, -, e0, e1, e2⟩ := idx_facts0 ⟨4 * (i 0).val + 3, by rw [show cfg0.N = 16 from N_0]; omega⟩
  intro a
  match a with
  | ⟨0, _⟩ => show win0_2.index _ (0 : Fin 3) * 1 ≤ (i 0).val ∧ (i 0).val < win0_2.index _ (0 : Fin 3) * 1 + 1; rw [e0]; show (4 * (i 0).val + 3) / 4 * 1 ≤ _ ∧ _ < (4 * (i 0).val + 3) / 4 * 1 + 1; omega
  | ⟨1, _⟩ => show win0_2.index _ (1 : Fin 3) * 2048 ≤ (i 1).val ∧ (i 1).val < win0_2.index _ (1 : Fin 3) * 2048 + 2048; rw [e1]; omega
  | ⟨2, _⟩ => show win0_2.index _ (2 : Fin 3) * 128 ≤ (i 2).val ∧ (i 2).val < win0_2.index _ (2 : Fin 3) * 128 + 128; rw [e2]; omega

/-- THE OUTPUT ARRAY after the first region. -/
theorem final0 (c : Dev nD) : (dat0 V c).arrAt 2 cfg0.N = Z0 V c :=
  (dat0 V c).arrAt_eq_of_cover 2 (Z0 V c) (fun t hf => flushed0_eq V c t hf) cover0

end Cert.KernelIdeal.Acc

end
-- ==== Proof.K1Base.lean ====
/-
  The second kernel region (y = z · w_outᵀ + x · w_linᵀ + b_lin, the second product accumulated over eight blocks
  of the contracted axis): what its runs share. Its grid is 4 × 4 × 8, the last coordinate the block of the
  contracted axis; the body sets the accumulator to z · w_outᵀ where that coordinate is 0, adds one block's product
  at every point, and stores the accumulator plus the bias row into the output block where the coordinate is 7.
-/
import proofs.«171241_j26474178412911_2_alg».proof.Proof.Gen.KernelIdeal.Launch
import proofs.«171241_j26474178412911_2_alg».proof.Proof.Gen.KernelIdeal.Skeleton
import proofs.«171241_j26474178412911_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions over the grid -/

/-- The accumulator is set afresh where the block coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The output block is stored where the block coordinate is 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs -/

abbrev VO1_5 : View sig .tc .vmem S1x2048x1024 .f32 := (Memref.whole cc1_stg5_0 : Memref sig .tc .vmem S1x2048x1024 .f32).view
abbrev ms1_0 (t : Fin cfg1.N) : Memref sig .tc .vmem S1x2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2048x1024 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1 : Memref sig .tc .vmem S2048x1024 .f32 := Memref.whole cc1_scratch0
abbrev VS1 : View sig .tc .vmem S2048x1024 .f32 := scM1.view

/-- The scoped buffers the second region neither stages nor names (the first region's staging buffers and
    accumulator), in front of what is said of its own accumulator. -/
def rest1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

theorem PhiA1_eq (c : Dev nD) :
    (Pipeline.ΦA spec1 c : sProp 𝕄)
      = iprop(rest1 (F := F) c (iprop(∃ d, owns (c : Thread nD τ) scM1 fullShare d)) ∗ (∃ r, prngReg c r)) := by
  unfold Pipeline.ΦA rest1; rw [scopedRest1_eq]; simp only [scM1, owns_whole]; try rfl

/-! ## The windows' blocks -/

section
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end

end Cert.KernelIdeal.Acc

end
-- ==== Proof.K1RunA.lean ====
/-
  The second kernel region's body run whole in the case where the accumulator is set afresh (block coordinate 0): it takes z · w_outᵀ, then the first block's product is added; nothing is stored into the output block.
-/
import proofs.«171241_j26474178412911_2_alg».proof.Proof.K1Base

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body in this case on whole staging memrefs: the inputs' at their contents, the output's (not stored into here) handed back as found, the accumulator at anything; it runs to the continuation holding the inputs' as they were and the accumulator with the pieces the stores wrote. The pieces are found by the run. -/
noncomputable def kernelRun1_A (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond1_0 i) (hc1 : ¬cond1_1 i)
    (x0 : Vec F S1x2048x512 .bf16) (x1 : Vec F S1x2048x128 .bf16) (x2 : Vec F S1024x128 .bf16) (x3 : Vec F S1024x512 .bf16) (x4 : Vec F S1x1024 .f32) :
    { LS0 : List (View.Piece (Elt F) S2048x1024 .f32) //
      ∀ (xi5 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨?_, fun xi5 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Acc

end
-- ==== Proof.K1RunB.lean ====
/-
  The second kernel region's body run whole in the case where one block's product is added to the accumulator the point before left (block coordinates 1 to 6); nothing is stored into the output block.
-/
import proofs.«171241_j26474178412911_2_alg».proof.Proof.K1RunA

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body in this case on whole staging memrefs: the inputs' at their contents, the output's (not stored into here) handed back as found, the accumulator at what the point before left; it runs to the continuation holding the inputs' as they were and the accumulator with the pieces the stores wrote. The pieces are found by the run. -/
noncomputable def kernelRun1_B (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : ¬cond1_1 i)
    (x0 : Vec F S1x2048x512 .bf16) (x1 : Vec F S1x2048x128 .bf16) (x2 : Vec F S1024x128 .bf16) (x3 : Vec F S1024x512 .bf16) (x4 : Vec F S1x1024 .f32) (xs0 : Vec F S2048x1024 .f32) :
    { LS0 : List (View.Piece (Elt F) S2048x1024 .f32) //
      ∀ (xi5 : Vec F S1x2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨?_, fun xi5 E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0; obtain rfl := harg8.eq_unread hf5
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; iexact HS0

end Cert.KernelIdeal.Acc

end
-- ==== Proof.K1RunC.lean ====
/-
  The second kernel region's body run whole in the case where the last block's product is added to the accumulator the point before left and the sum plus the bias row is stored into the output block (block coordinate 7).
-/
import proofs.«171241_j26474178412911_2_alg».proof.Proof.K1RunB

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body in this case on whole staging memrefs: the inputs' at their contents, the output's at anything, the accumulator at what the point before left; it runs to the continuation holding the inputs' as they were and the accumulator and the output's buffer with the pieces the stores wrote. The pieces are found by the run. -/
noncomputable def kernelRun1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i)
    (x0 : Vec F S1x2048x512 .bf16) (x1 : Vec F S1x2048x128 .bf16) (x2 : Vec F S1024x128 .bf16) (x3 : Vec F S1024x512 .bf16) (x4 : Vec F S1x1024 .f32) (xs0 : Vec F S2048x1024 .f32) :
    Σ' (L5 : List (View.Piece (Elt F) S1x2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__y_kernel i arg3 harg3 arg4 harg4 arg5 harg5 arg6 harg6 arg7 harg7 arg8 harg8 arg9 harg9) K } := by
  refine ⟨?_, ?_, fun E K => ?run⟩
  case run =>
    simp only [cc1__y_kernel_eq_skeleton]; unfold cc1__y_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS0

end Cert.KernelIdeal.Acc

end
-- ==== Proof.K1Frame.lean ====
/-
  The second kernel region point by point, as the first: what each case leaves in the accumulator (and in the
  output window's buffer where the output block is stored), what they hold after point n by recursion on n, the
  invariant carrying the accumulator from point to point, the pipeline's proof data and the body obligation.
-/
import proofs.«171241_j26474178412911_2_alg».proof.Proof.K1RunC

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) (y : S2048x1024.Idx) :
    ∃ pc ∈ (kernelRun1_A c i arg3 harg3 arg4 harg4 arg5 harg5 arg6 harg6 arg7 harg7 arg8 harg8 arg9 harg9 hc0 hc1 x0 x1 x2 x3 x4).1, y ∈ pc.1.set :=
  View.cover_of_tiledL (kernelRun1_A c i arg3 harg3 arg4 harg4 arg5 harg5 arg6 harg6 arg7 harg7 arg8 harg8 arg9 harg9 hc0 hc1 x0 x1 x2 x3 x4).1 S2048x1024.size (by sl_kernel_rfl) y
/-- The accumulator after the case that sets it afresh: z · w_outᵀ plus the first block's product. -/
def sout1_A (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) : Vec F S2048x1024 .f32 :=
  VS1.read (Elt F) (VS1.writes (Elt F) VS1.junk (kernelRun1_A c i arg3 harg3 arg4 harg4 arg5 harg5 arg6 harg6 arg7 harg7 arg8 harg8 arg9 harg9 hc0 hc1 x0 x1 x2 x3 x4).1)

theorem scover1_B (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) (y : S2048x1024.Idx) :
    ∃ pc ∈ (kernelRun1_B c i arg3 harg3 arg4 harg4 arg5 harg5 arg6 harg6 arg7 harg7 arg8 harg8 arg9 harg9 hc0 hc1 x0 x1 x2 x3 x4 xs0).1, y ∈ pc.1.set :=
  View.cover_of_tiledL (kernelRun1_B c i arg3 harg3 arg4 harg4 arg5 harg5 arg6 harg6 arg7 harg7 arg8 harg8 arg9 harg9 hc0 hc1 x0 x1 x2 x3 x4 xs0).1 S2048x1024.size (by sl_kernel_rfl) y
/-- The accumulator after an accumulating case. -/
def sout1_B (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) : Vec F S2048x1024 .f32 :=
  VS1.read (Elt F) (VS1.writes (Elt F) VS1.junk (kernelRun1_B c i arg3 harg3 arg4 harg4 arg5 harg5 arg6 harg6 arg7 harg7 arg8 harg8 arg9 harg9 hc0 hc1 x0 x1 x2 x3 x4 xs0).1)

theorem cover1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) (y : S1x2048x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1x2048x1024.size (by sl_kernel_rfl) y
/-- The output window's buffer after the storing case. -/
def out1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) : Vec F S1x2048x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)
theorem scover1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) (y : S2048x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S2048x1024.size (by sl_kernel_rfl) y
/-- The accumulator after the storing case. -/
def sout1_C (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) : Vec F S2048x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-- Where the output block is not stored its component below is never consulted: any value will do. -/
def noOut1 : Vec F S1x2048x1024 .f32 := VO1_5.read (Elt F) VO1_5.junk

section
variable (V : (c : Dev nD) → (b : Ref sig .tc) → Buf (Elt F) ((c : Thread nD τ).loc b))

/-! ## Point by point -/

/-- What the output window's buffer and the accumulator hold after the body at position `n`. -/
def outsAt1 (c : Dev nD) : (n : ℕ) → n < cfg1.N → Vec F S1x2048x1024 .f32 × Vec F S2048x1024 .f32
  | 0, hn => (noOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 8 = 0 then
      if h1 : (n + 1) % 8 = 7 then
        False.elim (by omega)
      else
        (noOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (noOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = (noOut1, sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = (noOut1, sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`. -/
def PhiS1 (c : Dev nD) : (n : ℕ) → n ≤ cfg1.N → sProp 𝕄
  | 0, _ => Pipeline.ΦA spec1 c
  | n + 1, hn => iprop(rest1 (F := F) c (owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(rest1 (F := F) c (owns (c : Thread nD τ) scM1 fullShare ((outsAt1 V c n hn).2)) ∗ (∃ r, prngReg c r)) := rfl
theorem PhiS1_pos (c : Dev nD) (n : ℕ) (h : n ≤ cfg1.N) (hz : n ≠ 0) :
    PhiS1 V c n h = iprop(rest1 (F := F) c (owns (c : Thread nD τ) scM1 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · have h1 : ¬t.val % 8 = 7 := by omega
    rw [Dat.leavesExact_idle (dat1 V c) 5 t (idleAt1_5 t (fun h => h1 ((hcond1_1 t).mp h))) (noFlush1_5 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      unfold rest1
      iintro ⟨⟨⟨R0, R1, R2, R3, R4, R5, R6, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R0 R1 R2 R3 R4 R5 R6 HS0 Hg]
      · isplitl [R0 R1 R2 R3 R4 R5 R6 HS0]
        · skip
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      unfold rest1
      iintro ⟨⟨⟨R0, R1, R2, R3, R4, R5, R6, HS0⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [R0 R1 R2 R3 R4 R5 R6 HS0 Hg]
      · isplitl [R0 R1 R2 R3 R4 R5 R6 HS0]
        · skip
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_A c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 8 = 7
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C sout1_C; (try dsimp only)
      rw [PhiS1_castSucc V c t, PhiS1_pos V c _ _ hz]
      unfold rest1
      iintro ⟨⟨⟨R0, R1, R2, R3, R4, R5, R6, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [R0 R1 R2 R3 R4 R5 R6 HS0 Hg]
      · isplitl [R0 R1 R2 R3 R4 R5 R6 HS0]
        · skip
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B; (try dsimp only)
      rw [PhiS1_castSucc V c t, PhiS1_pos V c _ _ hz]
      unfold rest1
      iintro ⟨⟨⟨R0, R1, R2, R3, R4, R5, R6, HS0⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [R0 R1 R2 R3 R4 R5 R6 HS0 Hg]
      · isplitl [R0 R1 R2 R3 R4 R5 R6 HS0]
        · skip
          isplitl [R0]; · iexact R0
          isplitl [R1]; · iexact R1
          isplitl [R2]; · iexact R2
          isplitl [R3]; · iexact R3
          isplitl [R4]; · iexact R4
          isplitl [R5]; · iexact R5
          isplitl [R6]; · iexact R6
          unfold owns; iexists _; isplitr
          swap; · iexact HS0
          ipureintro; exact View.read_writes_of_cover _ _ _ _ _ (scover1_B c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  unfold rest1
  iintro ⟨⟨R0, R1, R2, R3, R4, R5, R6, HS0⟩, Hg⟩
  isplitl [R0 R1 R2 R3 R4 R5 R6 HS0]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HS0
  iexact Hg

end

end Cert.KernelIdeal.Acc

end
-- ==== Proof.K1Closed.lean ====
/-
  What each case of the second region's body leaves, in closed form: the case that sets the accumulator afresh
  leaves z · w_outᵀ plus the first block's product; the accumulating cases leave what the accumulator held plus the
  block's product; the storing case stores that sum plus the bias row into the output block.
-/
import proofs.«171241_j26474178412911_2_alg».proof.Proof.K1Frame
import proofs.«171241_j26474178412911_2_alg».proof.Proof.K0Closed
import Idealize.ShloMosaic.Lib.Pipeline.Value

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem sout1_A_eq (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) :
    sout1_A c i arg3 harg3 arg4 harg4 arg5 harg5 arg6 harg6 arg7 harg7 arg8 harg8 arg9 harg9 hc0 hc1 x0 x1 x2 x3 x4 = k1_pay2 (k1_pay1 x1 x2) x0 x3 := by
  unfold sout1_A
  rw [View.read_writes_eq_canon _ _ _ (scover1_A c i arg3 harg3 arg4 harg4 arg5 harg5 arg6 harg6 arg7 harg7 arg8 harg8 arg9 harg9 hc0 hc1 x0 x1 x2 x3 x4)]
  unfold kernelRun1_A
  dsimp only
  sl_unfold_words
  rw [View.canon_cons_unit_zero (S := S2048x1024) zeros2]
  rw [View.readCov_unit_zero (S := S2048x1024) _ zeros2]
  simp only [View.readAt_eq_ld, harg3.read_unread, harg4.read_unread, harg5.read_unread, harg6.read_unread, harg7.read_unread, harg9.read_unread, View.ld_unit_zero (S := S1x2048x512) zeros3, View.ld_unit_zero (S := S1x2048x128) zeros3, View.ld_unit_zero (S := S1024x128) zeros2, View.ld_unit_zero (S := S1024x512) zeros2, View.ld_unit_zero (S := S1x1024) zeros2, View.ld_unit_zero (S := S2048x1024) zeros2]

theorem sout1_B_eq (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : ¬cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) :
    sout1_B c i arg3 harg3 arg4 harg4 arg5 harg5 arg6 harg6 arg7 harg7 arg8 harg8 arg9 harg9 hc0 hc1 x0 x1 x2 x3 x4 xs0 = k1_pay2 xs0 x0 x3 := by
  unfold sout1_B
  rw [View.read_writes_eq_canon _ _ _ (scover1_B c i arg3 harg3 arg4 harg4 arg5 harg5 arg6 harg6 arg7 harg7 arg8 harg8 arg9 harg9 hc0 hc1 x0 x1 x2 x3 x4 xs0)]
  unfold kernelRun1_B
  dsimp only
  sl_unfold_words
  rw [View.canon_cons_unit_zero (S := S2048x1024) zeros2]
  simp only [View.readAt_eq_ld, harg3.read_unread, harg4.read_unread, harg5.read_unread, harg6.read_unread, harg7.read_unread, harg9.read_unread, View.ld_unit_zero (S := S1x2048x512) zeros3, View.ld_unit_zero (S := S1x2048x128) zeros3, View.ld_unit_zero (S := S1024x128) zeros2, View.ld_unit_zero (S := S1024x512) zeros2, View.ld_unit_zero (S := S1x1024) zeros2, View.ld_unit_zero (S := S2048x1024) zeros2]

theorem sout1_C_eq (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) :
    sout1_C c i arg3 harg3 arg4 harg4 arg5 harg5 arg6 harg6 arg7 harg7 arg8 harg8 arg9 harg9 hc0 hc1 x0 x1 x2 x3 x4 xs0 = k1_pay2 xs0 x0 x3 := by
  unfold sout1_C
  rw [View.read_writes_eq_canon _ _ _ (scover1_C c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_cons_unit_zero (S := S2048x1024) zeros2]
  simp only [View.readAt_eq_ld, harg3.read_unread, harg4.read_unread, harg5.read_unread, harg6.read_unread, harg7.read_unread, harg9.read_unread, View.ld_unit_zero (S := S1x2048x512) zeros3, View.ld_unit_zero (S := S1x2048x128) zeros3, View.ld_unit_zero (S := S1024x128) zeros2, View.ld_unit_zero (S := S1024x512) zeros2, View.ld_unit_zero (S := S1x1024) zeros2, View.ld_unit_zero (S := S2048x1024) zeros2]

theorem out1_C_eq (c : Dev nD) (i : grid1.Coords) (arg3 : Memref sig .tc .vmem S1x2048x512 .bf16) (harg3 : arg3.IsWhole) (arg4 : Memref sig .tc .vmem S1x2048x128 .bf16) (harg4 : arg4.IsWhole) (arg5 : Memref sig .tc .vmem S1024x128 .bf16) (harg5 : arg5.IsWhole) (arg6 : Memref sig .tc .vmem S1024x512 .bf16) (harg6 : arg6.IsWhole) (arg7 : Memref sig .tc .vmem S1x1024 .f32) (harg7 : arg7.IsWhole) (arg8 : Memref sig .tc .vmem S1x2048x1024 .f32) (harg8 : arg8.IsWhole) (arg9 : Memref sig .tc .vmem S2048x1024 .f32) (harg9 : arg9.IsWhole) (hc0 : ¬cond1_0 i) (hc1 : cond1_1 i) (x0 : Vec F S1x2048x512 .bf16) (x1 : Vec F S1x2048x128 .bf16) (x2 : Vec F S1024x128 .bf16) (x3 : Vec F S1024x512 .bf16) (x4 : Vec F S1x1024 .f32) (xs0 : Vec F S2048x1024 .f32) :
    out1_C c i arg3 harg3 arg4 harg4 arg5 harg5 arg6 harg6 arg7 harg7 arg8 harg8 arg9 harg9 hc0 hc1 x0 x1 x2 x3 x4 xs0 = k1_pay3 (k1_pay2 xs0 x0 x3) x4 := by
  unfold out1_C
  rw [View.read_writes_eq_canon _ _ _ (cover1_C c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_cons_unit_zero (S := S1x2048x1024) zeros3]
  rw [View.readCov_unit_zero (S := S2048x1024) _ zeros2]
  simp only [View.readAt_eq_ld, harg3.read_unread, harg4.read_unread, harg5.read_unread, harg6.read_unread, harg7.read_unread, harg9.read_unread, View.ld_unit_zero (S := S1x2048x512) zeros3, View.ld_unit_zero (S := S1x2048x128) zeros3, View.ld_unit_zero (S := S1024x128) zeros2, View.ld_unit_zero (S := S1024x512) zeros2, View.ld_unit_zero (S := S1x1024) zeros2, View.ld_unit_zero (S := S2048x1024) zeros2]

end Cert.KernelIdeal.Acc

end
-- ==== Proof.K1Value.lean ====
/-
  The second kernel region's value at the ideal instance. At point t = 32·b + 8·q + k the blocks are: rows of
  batch b of x restricted to the k-th block of 512 contracted indices; batch b of z; the q-th block of 1024 rows of
  w_out and of w_lin (the latter restricted to the same 512 contracted indices); the q-th block of 1024 entries of
  the bias row. After that point the accumulator holds, at (s, o'), with o = 1024·q + o':
  ∑ r, z(b, s, r) · w_out(o, r) plus the sum over the contracted indices below 512·(k + 1) of x(b, s, i) · w_lin(o, i).
  At k = 7 the second sum is whole, and the body stores the accumulator plus bias(o) into block (b, q) of the output;
  the sixteen blocks tile the output array.
-/
import proofs.«171241_j26474178412911_2_alg».proof.Proof.K1Closed
import proofs.«171241_j26474178412911_2_alg».proof.Proof.KPay
import proofs.«171241_j26474178412911_2_alg».proof.Proof.LibBlockedSum
import Idealize.ShloMosaic.Lib.Pipeline.Value

set_option maxRecDepth 16384

noncomputable section

namespace Cert.KernelIdeal.Acc

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem idx_facts1 : ∀ t : Fin cfg1.N,
    win1_0.index t (0 : Fin 3) = t.val / 32 ∧ win1_0.index t (1 : Fin 3) = 0 ∧ win1_0.index t (2 : Fin 3) = t.val % 8
    ∧ win1_1.index t (0 : Fin 3) = t.val / 32 ∧ win1_1.index t (1 : Fin 3) = 0 ∧ win1_1.index t (2 : Fin 3) = 0
    ∧ win1_2.index t (0 : Fin 2) = t.val / 8 % 4 ∧ win1_2.index t (1 : Fin 2) = 0
    ∧ win1_3.index t (0 : Fin 2) = t.val / 8 % 4 ∧ win1_3.index t (1 : Fin 2) = t.val % 8
    ∧ win1_4.index t (0 : Fin 2) = 0 ∧ win1_4.index t (1 : Fin 2) = t.val / 8 % 4
    ∧ win1_5.index t (0 : Fin 3) = t.val / 32 ∧ win1_5.index t (1 : Fin 3) = 0 ∧ win1_5.index t (2 : Fin 3) = t.val / 8 % 4 :=
  (by decide +kernel : ∀ t : Fin grid1.N, _)

abbrev xb1 (c : Dev nD) : S4x2048x4096.Idx → EReal := V c main_v11
abbrev zz1 (c : Dev nD) : S4x2048x128.Idx → EReal := V c main_v15
abbrev wo1 (c : Dev nD) : S4096x128.Idx → EReal := V c main_v13
abbrev wl1 (c : Dev nD) : S4096x4096.Idx → EReal := V c main_v14
abbrev bl1 (c : Dev nD) : S1x4096.Idx → EReal := V c main_v16

theorem iblk1_0_apply (c : Dev nD) (t : Fin cfg1.N) (u : Fin 1) (s : Fin 2048) (j : Fin 512) (b : Fin 4) (i : Fin 4096)
    (hb : b.val = t.val / 32) (hi : i.val = 512 * (t.val % 8) + j.val) :
    (iblk1 V c 0 t : Vec Ideal S1x2048x512 .bf16) (ix3 u s j) = xb1 V c (ix3 b s i) := by
  unfold iblk1
  show (V c main_v11 : S4x2048x4096.Idx → EReal) (((cfg1.win 0).blk t).view.emb (ix3 u s j)) = _
  refine congrArg _ ?_
  obtain ⟨e0, e1, e2, -⟩ := idx_facts1 t
  funext a; apply Fin.ext
  match a with
  | ⟨0, _⟩ => show win1_0.index t (0 : Fin 3) * 1 + 1 * u.val = b.val; have := u.isLt; omega
  | ⟨1, _⟩ => show win1_0.index t (1 : Fin 3) * 2048 + 1 * s.val = s.val; omega
  | ⟨2, _⟩ => show win1_0.index t (2 : Fin 3) * 512 + 1 * j.val = i.val; omega

theorem iblk1_1_apply (c : Dev nD) (t : Fin cfg1.N) (u : Fin 1) (s : Fin 2048) (r : Fin 128) (b : Fin 4)
    (hb : b.val = t.val / 32) :
    (iblk1 V c 1 t : Vec Ideal S1x2048x128 .bf16) (ix3 u s r) = zz1 V c (ix3 b s r) := by
  unfold iblk1
  show (V c main_v15 : S4x2048x128.Idx → EReal) (((cfg1.win 1).blk t).view.emb (ix3 u s r)) = _
  refine congrArg _ ?_
  obtain ⟨-, -, -, e0, e1, e2, -⟩ := idx_facts1 t
  funext a; apply Fin.ext
  match a with
  | ⟨0, _⟩ => show win1_1.index t (0 : Fin 3) * 1 + 1 * u.val = b.val; have := u.isLt; omega
  | ⟨1, _⟩ => show win1_1.index t (1 : Fin 3) * 2048 + 1 * s.val = s.val; omega
  | ⟨2, _⟩ => show win1_1.index t (2 : Fin 3) * 128 + 1 * r.val = r.val; omega

theorem iblk1_2_apply (c : Dev nD) (t : Fin cfg1.N) (o' : Fin 1024) (r : Fin 128) (o : Fin 4096)
    (ho : o.val = 1024 * (t.val / 8 % 4) + o'.val) :
    (iblk1 V c 2 t : Vec Ideal S1024x128 .bf16) (ix2 o' r) = wo1 V c (ix2 o r) := by
  unfold iblk1
  show (V c main_v13 : S4096x128.Idx → EReal) (((cfg1.win 2).blk t).view.emb (ix2 o' r)) = _
  refine congrArg _ ?_
  obtain ⟨-, -, -, -, -, -, e0, e1, -⟩ := idx_facts1 t
  funext a; apply Fin.ext
  match a with
  | ⟨0, _⟩ => show win1_2.index t (0 : Fin 2) * 1024 + 1 * o'.val = o.val; omega
  | ⟨1, _⟩ => show win1_2.index t (1 : Fin 2) * 128 + 1 * r.val = r.val; omega

theorem iblk1_3_apply (c : Dev nD) (t : Fin cfg1.N) (o' : Fin 1024) (j : Fin 512) (o : Fin 4096) (i : Fin 4096)
    (ho : o.val = 1024 * (t.val / 8 % 4) + o'.val) (hi : i.val = 512 * (t.val % 8) + j.val) :
    (iblk1 V c 3 t : Vec Ideal S1024x512 .bf16) (ix2 o' j) = wl1 V c (ix2 o i) := by
  unfold iblk1
  show (V c main_v14 : S4096x4096.Idx → EReal) (((cfg1.win 3).blk t).view.emb (ix2 o' j)) = _
  refine congrArg _ ?_
  obtain ⟨-, -, -, -, -, -, -, -, e0, e1, -⟩ := idx_facts1 t
  funext a; apply Fin.ext
  match a with
  | ⟨0, _⟩ => show win1_3.index t (0 : Fin 2) * 1024 + 1 * o'.val = o.val; omega
  | ⟨1, _⟩ => show win1_3.index t (1 : Fin 2) * 512 + 1 * j.val = i.val; omega

theorem iblk1_4_apply (c : Dev nD) (t : Fin cfg1.N) (u : Fin 1) (o' : Fin 1024) (o : Fin 4096)
    (ho : o.val = 1024 * (t.val / 8 % 4) + o'.val) :
    (iblk1 V c 4 t : Vec Ideal S1x1024 .f32) (ix2 u o') = bl1 V c (ix2 (⟨0, Nat.one_pos⟩ : Fin 1) o) := by
  unfold iblk1
  show (V c main_v16 : S1x4096.Idx → EReal) (((cfg1.win 4).blk t).view.emb (ix2 u o')) = _
  refine congrArg _ ?_
  obtain ⟨-, -, -, -, -, -, -, -, -, -, e0, e1, -⟩ := idx_facts1 t
  funext a; apply Fin.ext
  match a with
  | ⟨0, _⟩ => show win1_4.index t (0 : Fin 2) * 1 + 1 * u.val = 0; have := u.isLt; omega
  | ⟨1, _⟩ => show win1_4.index t (1 : Fin 2) * 1024 + 1 * o'.val = o.val; omega

/-- The accumulator after a point that sets it afresh. -/
theorem acc_A1 (c : Dev nD) (t : Fin cfg1.N) (h0 : t.val % 8 = 0) (h1 : ¬t.val % 8 = 7) :
    (outsAt1 V c t.val t.isLt).2 = k1_pay2 (F := Ideal) (k1_pay1 (F := Ideal) (iblk1 V c 1 t) (iblk1 V c 2 t)) (iblk1 V c 0 t) (iblk1 V c 3 t) := by
  have h2 : (outsAt1 V c t.val t.isLt).2 = sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) := by
    rw [outsAt1_A V c t h0 h1]
  exact h2.trans (sout1_A_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t))

/-- The accumulator after any other point. -/
theorem acc_B1 (c : Dev nD) (t : Fin cfg1.N) (h0 : ¬t.val % 8 = 0) :
    (outsAt1 V c t.val t.isLt).2 = k1_pay2 (F := Ideal) (outsAt1 V c (t.val - 1) (Nat.lt_of_le_of_lt (Nat.sub_le _ _) t.isLt)).2 (iblk1 V c 0 t) (iblk1 V c 3 t) := by
  by_cases h1 : t.val % 8 = 7
  · have h2 : (outsAt1 V c t.val t.isLt).2 = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2 := by
      rw [outsAt1_C V c t h0 h1]
    exact h2.trans (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2)
  · have h2 : (outsAt1 V c t.val t.isLt).2 = sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2 := by
      rw [outsAt1_B V c t h0 h1]
    exact h2.trans (sout1_B_eq c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2)

/-- z · w_outᵀ at (b, s, o), plus the partial sum of x · w_linᵀ over the contracted indices below `512 * k`. -/
def part1 (xb : S4x2048x4096.Idx → EReal) (wl : S4096x4096.Idx → EReal) (zz : S4x2048x128.Idx → EReal) (wo : S4096x128.Idx → EReal)
    (b : Fin 4) (o : Fin 4096) (k : ℕ) (s : Fin 2048) : EReal :=
  (∑ r : Fin 128, zz (ix3 b s r) * wo (ix2 o r)) + ∑ i ∈ Finset.univ.filter (fun i : Fin 4096 => i.val < 512 * k), xb (ix3 b s i) * wl (ix2 o i)

/-- THE ACCUMULATOR after point `t`. -/
theorem acc1 (c : Dev nD) : ∀ (n : ℕ) (t : Fin cfg1.N), t.val = n → ∀ (b : Fin 4) (k : ℕ), b.val = t.val / 32 → k = t.val % 8 →
    ∀ (s : Fin 2048) (o' : Fin 1024) (o : Fin 4096), o.val = 1024 * (t.val / 8 % 4) + o'.val →
    (outsAt1 V c t.val t.isLt).2 (ix2 s o') = part1 (xb1 V c) (wl1 V c) (zz1 V c) (wo1 V c) b o (k + 1) s := by
  intro n
  induction n with
  | zero =>
    intro t ht b k hb hk s o' o ho
    have h0 : t.val % 8 = 0 := by omega
    have hk0 : k = 0 := by omega
    subst hk0
    rw [acc_A1 V c t h0 (by omega), k1_pay2_apply, k1_pay1_apply]
    unfold part1
    rw [Cert.LibBlockedSum.sum_lt_succ 512 0 (by omega), Cert.LibBlockedSum.sum_lt_zero]
    refine congrArg₂ (· + ·) (Finset.sum_congr rfl fun r _ => ?_) (Eq.trans (Finset.sum_congr rfl fun j _ => ?_) (zero_add _).symm)
    · rw [iblk1_1_apply V c t _ s r b hb, iblk1_2_apply V c t o' r o ho]
    · have hj := j.isLt
      rw [iblk1_0_apply V c t _ s j b ⟨512 * 0 + j.val, by omega⟩ hb (by show 512 * 0 + j.val = _; omega),
        iblk1_3_apply V c t o' j o ⟨512 * 0 + j.val, by omega⟩ ho (by show 512 * 0 + j.val = _; omega)]
  | succ n ih =>
    intro t ht b k hb hk s o' o ho
    have hN : t.val < 128 := lt_of_lt_of_eq t.isLt (show cfg1.N = 128 from N_1)
    by_cases h0 : t.val % 8 = 0
    · have hk0 : k = 0 := by omega
      subst hk0
      rw [acc_A1 V c t h0 (by omega), k1_pay2_apply, k1_pay1_apply]
      unfold part1
      rw [Cert.LibBlockedSum.sum_lt_succ 512 0 (by omega), Cert.LibBlockedSum.sum_lt_zero]
      refine congrArg₂ (· + ·) (Finset.sum_congr rfl fun r _ => ?_) (Eq.trans (Finset.sum_congr rfl fun j _ => ?_) (zero_add _).symm)
      · rw [iblk1_1_apply V c t _ s r b hb, iblk1_2_apply V c t o' r o ho]
      · have hj := j.isLt
        rw [iblk1_0_apply V c t _ s j b ⟨512 * 0 + j.val, by omega⟩ hb (by show 512 * 0 + j.val = _; omega),
          iblk1_3_apply V c t o' j o ⟨512 * 0 + j.val, by omega⟩ ho (by show 512 * 0 + j.val = _; omega)]
    · have hprev := ih ⟨t.val - 1, Nat.lt_of_le_of_lt (Nat.sub_le _ _) t.isLt⟩ (by show t.val - 1 = n; omega) b (k - 1)
        (by rw [hb]; show t.val / 32 = (t.val - 1) / 32; omega) (by show k - 1 = (t.val - 1) % 8; omega) s o' o
        (by rw [ho]; show 1024 * (t.val / 8 % 4) + o'.val = 1024 * ((t.val - 1) / 8 % 4) + o'.val; omega)
      have hk1 : k - 1 + 1 = k := by omega
      rw [hk1] at hprev
      rw [acc_B1 V c t h0, k1_pay2_apply]
      rw [show (outsAt1 V c (t.val - 1) (Nat.lt_of_le_of_lt (Nat.sub_le _ _) t.isLt)).2 (ix2 s o') = part1 (xb1 V c) (wl1 V c) (zz1 V c) (wo1 V c) b o k s from hprev]
      unfold part1
      rw [Cert.LibBlockedSum.sum_lt_succ 512 k (by omega), add_assoc]
      refine congrArg (_ + ·) (congrArg (_ + ·) (Finset.sum_congr rfl fun j _ => ?_))
      have hj := j.isLt
      rw [iblk1_0_apply V c t _ s j b ⟨512 * k + j.val, by omega⟩ hb (by show 512 * k + j.val = _; omega),
        iblk1_3_apply V c t o' j o ⟨512 * k + j.val, by omega⟩ ho (by show 512 * k + j.val = _; omega)]

/-- What the second region leaves in its output array. -/
def Y1 (c : Dev nD) : S4x2048x4096.Idx → EReal := fun y =>
  ((∑ r : Fin 128, zz1 V c (ix3 (y 0) (y 1) r) * wo1 V c (ix2 (y 2) r)) + ∑ i : Fin 4096, xb1 V c (ix3 (y 0) (y 1) i) * wl1 V c (ix2 (y 2) i))
    + bl1 V c (ix2 (⟨0, Nat.one_pos⟩ : Fin 1) (y 2))

theorem out_eq_acc1 (c : Dev nD) (t : Fin cfg1.N) (h0 : ¬t.val % 8 = 0) (h1 : t.val % 8 = 7) :
    (outsAt1 V c t.val t.isLt).1 = k1_pay3 (F := Ideal) (outsAt1 V c t.val t.isLt).2 (iblk1 V c 4 t) := by
  have e1 : (outsAt1 V c t.val t.isLt).1 = out1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2 := by
    rw [outsAt1_C V c t h0 h1]
  have e2 : (outsAt1 V c t.val t.isLt).2 = sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2 := by
    rw [outsAt1_C V c t h0 h1]
  rw [e1, e2, out1_C_eq, sout1_C_eq]

theorem flushed1_eq (c : Dev nD) (t : Fin cfg1.N) (hf : (cfg1.win 5).flush t = true) :
    (dat1 V c).flushed 5 t = ((cfg1.win 5).blk t).view.read (Elt Ideal) (Y1 V c) := by
  have h1 : t.val % 8 = 7 := (flush1_5 t).mp hf
  have h0 : ¬t.val % 8 = 0 := by omega
  have hN : t.val < 128 := lt_of_lt_of_eq t.isLt (show cfg1.N = 128 from N_1)
  show (cfg1.win 5).cut (grid1.coords t) ((dat1 V c).after 5 t) = _
  rw [after1_5, out_eq_acc1 V c t h0 h1]
  funext y
  obtain ⟨u, s, o', rfl⟩ : ∃ (u : Fin 1) (s : Fin 2048) (o' : Fin 1024), y = ix3 u s o' := ⟨y 0, y 1, y 2, eq_ix3 y⟩
  have ho' : o'.val < 1024 := o'.isLt
  show k1_pay3 (F := Ideal) _ _ (ix3 u s o') = Y1 V c (((cfg1.win 5).blk t).view.emb (ix3 u s o'))
  rw [k1_pay3_apply, acc1 V c t.val t rfl ⟨t.val / 32, by omega⟩ 7 rfl h1.symm s o' ⟨1024 * (t.val / 8 % 4) + o'.val, by omega⟩ rfl,
    iblk1_4_apply V c t _ o' ⟨1024 * (t.val / 8 % 4) + o'.val, by omega⟩ rfl]
  unfold part1
  rw [Cert.LibBlockedSum.sum_lt_all 512 8 (by omega)]
  obtain ⟨-, -, -, -, -, -, -, -, -, -, -, -, e0, e1, e2⟩ := idx_facts1 t
  have hemb : ((cfg1.win 5).blk t).view.emb (ix3 u s o') = (ix3 (⟨t.val / 32, by omega⟩ : Fin 4) s (⟨1024 * (t.val / 8 % 4) + o'.val, by omega⟩ : Fin 4096) : S4x2048x4096.Idx) := by
    funext a; apply Fin.ext
    match a with
    | ⟨0, _⟩ => show win1_5.index t (0 : Fin 3) * 1 + 1 * u.val = t.val / 32; have := u.isLt; omega
    | ⟨1, _⟩ => show win1_5.index t (1 : Fin 3) * 2048 + 1 * s.val = s.val; omega
    | ⟨2, _⟩ => show win1_5.index t (2 : Fin 3) * 1024 + 1 * o'.val = 1024 * (t.val / 8 % 4) + o'.val; omega
  rw [hemb]
  rfl

theorem mem_blk1 (t : Fin cfg1.N) (i : S4x2048x4096.Idx) :
    i ∈ ((cfg1.win 5).blk t).view.set ↔ ∀ a : Fin 3, win1_5.index t a * S1x2048x1024.size a ≤ (i a).val ∧ (i a).val < win1_5.index t a * S1x2048x1024.size a + S1x2048x1024.size a := by
  show i ∈ ((View.whole main_v17).slice (win1_5.rect t)).set ↔ _
  rw [View.set_slice_whole, Rect.mem_set_unit]
  exact Iff.rfl

theorem cover1 (i : S4x2048x4096.Idx) : ∃ t : Fin cfg1.N, (cfg1.win 5).flush t = true ∧ i ∈ ((cfg1.win 5).blk t).view.set := by
  have hi0 : (i 0).val < 4 := (i 0).isLt
  have hi1 : (i 1).val < 2048 := (i 1).isLt
  have hi2 : (i 2).val < 4096 := (i 2).isLt
  have hlt : 32 * (i 0).val + 8 * ((i 2).val / 1024) + 7 < cfg1.N := by rw [show cfg1.N = 128 from N_1]; omega
  refine ⟨⟨32 * (i 0).val + 8 * ((i 2).val / 1024) + 7, hlt⟩, (flush1_5 _).mpr (by show (32 * (i 0).val + 8 * ((i 2).val / 1024) + 7) % 8 = 7; omega), ?_⟩
  rw [mem_blk1]
  obtain ⟨-, -, -, -, -, -, -, -, -, -, -, -, e0, e1, e2⟩ := idx_facts1 ⟨32 * (i 0).val + 8 * ((i 2).val / 1024) + 7, hlt⟩
  intro a
  match a with
  | ⟨0, _⟩ => show win1_5.index _ (0 : Fin 3) * 1 ≤ (i 0).val ∧ (i 0).val < win1_5.index _ (0 : Fin 3) * 1 + 1; rw [e0]; show (32 * (i 0).val + 8 * ((i 2).val / 1024) + 7) / 32 * 1 ≤ _ ∧ _ < (32 * (i 0).val + 8 * ((i 2).val / 1024) + 7) / 32 * 1 + 1; omega
  | ⟨1, _⟩ => show win1_5.index _ (1 : Fin 3) * 2048 ≤ (i 1).val ∧ (i 1).val < win1_5.index _ (1 : Fin 3) * 2048 + 2048; rw [e1]; omega
  | ⟨2, _⟩ => show win1_5.index _ (2 : Fin 3) * 1024 ≤ (i 2).val ∧ (i 2).val < win1_5.index _ (2 : Fin 3) * 1024 + 1024; rw [e2]; show (32 * (i 0).val + 8 * ((i 2).val / 1024) + 7) / 8 % 4 * 1024 ≤ _ ∧ _ < (32 * (i 0).val + 8 * ((i 2).val / 1024) + 7) / 8 % 4 * 1024 + 1024; omega

/-- THE OUTPUT ARRAY after the second region. -/
theorem final1 (c : Dev nD) : (dat1 V c).arrAt 5 cfg1.N = Y1 V c :=
  (dat1 V c).arrAt_eq_of_cover 5 (Y1 V c) (fun t hf => flushed1_eq V c t hf) cover1

end Cert.KernelIdeal.Acc

end
-- ==== Proof.KRun.lean ====
/-
  The whole run: the host operations before the first region, the first region, the one host operation between,
  the second region. The unscoped buffers' contents at each boundary are a fold from the launch memory: a stretch
  of host operations applies them; a region leaves its arrays at what its write-backs leave and every other buffer
  as it was. Every weakly fair execution terminates with every unscoped buffer at the last boundary's contents;
  in particular no argument array is ever written, and the result array is what the second region's write-backs
  leave.
-/
import proofs.«171241_j26474178412911_2_alg».proof.Proof.K0Frame
import proofs.«171241_j26474178412911_2_alg».proof.Proof.K1Frame

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and what rides along -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- Beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The region as a segment: entered from every unscoped buffer at the contents before it and left at the contents
    after it; its arrays are split out of the unscoped buffers and put back at what the write-backs leave; the
    generator register and the scoped buffers go into the invariant and come back; nothing owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region as a segment: entered from every unscoped buffer at the contents before it and left at the contents
    after it; its arrays are split out of the unscoped buffers and put back at what the write-backs leave; the
    generator register and the scoped buffers go into the invariant and come back; nothing owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.KernelIdeal.Acc

end
-- ==== Proof.KArgs.lean ====
/-
  No stretch of host operations writes an argument array and no region has one among its windows' arrays, so the
  fold of the buffers' contents, read at an argument, walks back to the launch memory: the frame.
-/
import proofs.«171241_j26474178412911_2_alg».proof.Proof.KRun

set_option maxRecDepth 16384

noncomputable section

namespace Cert.KernelIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one host operation between the regions writes only the reshaped bias row. -/
theorem W3_of_ne (c : Dev nD) (b : Ref sig .tc) (hb : b ≠ main_v16) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W4_main_arg0 (c : Dev nD) : W4 m ρ c (Proc.devRef .tc main_arg0) = m ((c : Thread nD τ).loc main_arg0) :=
  (W4_of_ne m ρ c main_arg0 (by decide)).trans ((W3_of_ne m ρ c main_arg0 (by decide)).trans (W2_main_arg0 m ρ c))
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W4_main_arg1 (c : Dev nD) : W4 m ρ c (Proc.devRef .tc main_arg1) = m ((c : Thread nD τ).loc main_arg1) :=
  (W4_of_ne m ρ c main_arg1 (by decide)).trans ((W3_of_ne m ρ c main_arg1 (by decide)).trans (W2_main_arg1 m ρ c))
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W4_main_arg2 (c : Dev nD) : W4 m ρ c (Proc.devRef .tc main_arg2) = m ((c : Thread nD τ).loc main_arg2) :=
  (W4_of_ne m ρ c main_arg2 (by decide)).trans ((W3_of_ne m ρ c main_arg2 (by decide)).trans (W2_main_arg2 m ρ c))
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W4_main_arg3 (c : Dev nD) : W4 m ρ c (Proc.devRef .tc main_arg3) = m ((c : Thread nD τ).loc main_arg3) :=
  (W4_of_ne m ρ c main_arg3 (by decide)).trans ((W3_of_ne m ρ c main_arg3 (by decide)).trans (W2_main_arg3 m ρ c))
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W4_main_arg4 (c : Dev nD) : W4 m ρ c (Proc.devRef .tc main_arg4) = m ((c : Thread nD τ).loc main_arg4) :=
  (W4_of_ne m ρ c main_arg4 (by decide)).trans ((W3_of_ne m ρ c main_arg4 (by decide)).trans (W2_main_arg4 m ρ c))
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W4_main_arg5 (c : Dev nD) : W4 m ρ c (Proc.devRef .tc main_arg5) = m ((c : Thread nD τ).loc main_arg5) :=
  (W4_of_ne m ρ c main_arg5 (by decide)).trans ((W3_of_ne m ρ c main_arg5 (by decide)).trans (W2_main_arg5 m ρ c))
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W4_main_arg6 (c : Dev nD) : W4 m ρ c (Proc.devRef .tc main_arg6) = m ((c : Thread nD τ).loc main_arg6) :=
  (W4_of_ne m ρ c main_arg6 (by decide)).trans ((W3_of_ne m ρ c main_arg6 (by decide)).trans (W2_main_arg6 m ρ c))
theorem W1_main_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W4_main_arg7 (c : Dev nD) : W4 m ρ c (Proc.devRef .tc main_arg7) = m ((c : Thread nD τ).loc main_arg7) :=
  (W4_of_ne m ρ c main_arg7 (by decide)).trans ((W3_of_ne m ρ c main_arg7 (by decide)).trans (W2_main_arg7 m ρ c))

/-- THE FRAME: every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c)⟩)
    (run_all m ρ)

end Cert.KernelIdeal.Acc

end
-- ==== Proof.Spec.lean ====
/-
  The specification: the one function of the argument arrays that both programs compute, written with whole sums over
  the literal extents, and the one algebraic law by which the two programs' arrangements of it differ.

  Over extended reals, with x : [4, 2048, 4096], log_lr : [128, 4096], state : [4, 128, 4096], w_bsp : [128, 4096],
  w_out : [4096, 128], w_lin : [4096, 4096], b_lin : [4096]:

    rate (r, i)       = c01 · exp (log_lr (r, i) · c64)            (c64, c01 the two float literals, never evaluated)
    mixed (b, r, i)   = rate (r, i) · state (b, r, i) + w_bsp (r, i)
    low (b, s, r)     = ∑ i < 4096, x (b, s, i) · mixed (b, r, i)
    result (b, s, o)  = ((∑ r < 128, low (b, s, r) · w_out (o, r)) + ∑ i < 4096, x (b, s, i) · w_lin (o, i)) + b_lin (o)

  The other arrangement contracts x against the two summands of `mixed` separately and adds the two contractions:
  `∑ x · (a + w) = ∑ x · a + ∑ x · w`. On the extended reals a product distributes over a sum only away from the
  infinities (`⊤ · (⊤ + ⊥)` is not `⊤ · ⊤ + ⊤ · ⊥`), so the law is stated for entries that are real numbers; the sum
  over the index set then splits in any additive commutative monoid.
-/
import Idealize.ShloMosaic.PureOps.Ideal
import Idealize.ShloMosaic.Lib.ValueIdx

noncomputable section

open scoped BigOperators

namespace Cert.Spec

open Idealize.ShloMosaic Idealize.ShloMosaic.ValueIdx

/-! ## The shapes of the seven arrays the result depends on -/

abbrev SX : Shape := ⟨3, ![4, 2048, 4096]⟩
abbrev SRate : Shape := ⟨2, ![128, 4096]⟩
abbrev SState : Shape := ⟨3, ![4, 128, 4096]⟩
abbrev SOut : Shape := ⟨2, ![4096, 128]⟩
abbrev SLin : Shape := ⟨2, ![4096, 4096]⟩
abbrev SBias : Shape := ⟨1, ![4096]⟩

/-! ## The function -/

/-- The learning rate of entry `(r, i)`: the literal `c01` times the exponential of `log_lr (r, i)` times the literal `c64`. -/
def rate (log_lr : SRate.Idx → EReal) (r : Fin 128) (i : Fin 4096) : EReal :=
  Ideal.ofBits .f32 0x3C23D70A#32 * Ideal.exp (log_lr (ix2 r i) * Ideal.ofBits .f32 0x42800000#32)

/-- The mixed low-rank factor of batch `b` at `(r, i)`: the rate-scaled state plus the shared factor. -/
def mixed (log_lr : SRate.Idx → EReal) (state : SState.Idx → EReal) (w_bsp : SRate.Idx → EReal)
    (b : Fin 4) (r : Fin 128) (i : Fin 4096) : EReal :=
  rate log_lr r i * state (ix3 b r i) + w_bsp (ix2 r i)

/-- The low-rank activation of row `(b, s)` at `r`: the row of `x` contracted with the mixed factor over all 4096 features. -/
def low (x : SX.Idx → EReal) (log_lr : SRate.Idx → EReal) (state : SState.Idx → EReal) (w_bsp : SRate.Idx → EReal)
    (b : Fin 4) (s : Fin 2048) (r : Fin 128) : EReal :=
  ∑ i : Fin 4096, x (ix3 b s i) * mixed log_lr state w_bsp b r i

/-- The result at `(b, s, o)`: the low-rank activation contracted with `w_out` over all 128 ranks, plus the row of `x`
    contracted with `w_lin` over all 4096 features, plus the bias. -/
def Gat (x : SX.Idx → EReal) (log_lr : SRate.Idx → EReal) (state : SState.Idx → EReal) (w_bsp : SRate.Idx → EReal)
    (w_out : SOut.Idx → EReal) (w_lin : SLin.Idx → EReal) (b_lin : SBias.Idx → EReal)
    (b : Fin 4) (s : Fin 2048) (o : Fin 4096) : EReal :=
  ((∑ r : Fin 128, low x log_lr state w_bsp b s r * w_out (ix2 o r)) + ∑ i : Fin 4096, x (ix3 b s i) * w_lin (ix2 o i))
    + b_lin (ix1 o)

/-- The result array: `Gat` at the three coordinates of the index. -/
def G (x : SX.Idx → EReal) (log_lr : SRate.Idx → EReal) (state : SState.Idx → EReal) (w_bsp : SRate.Idx → EReal)
    (w_out : SOut.Idx → EReal) (w_lin : SLin.Idx → EReal) (b_lin : SBias.Idx → EReal) : SX.Idx → EReal :=
  fun j => Gat x log_lr state w_bsp w_out w_lin b_lin (j 0) (j 1) (j 2)

/-- At an index given by its coordinates the result array is `Gat` there. -/
theorem G_ix3 (x : SX.Idx → EReal) (log_lr : SRate.Idx → EReal) (state : SState.Idx → EReal) (w_bsp : SRate.Idx → EReal)
    (w_out : SOut.Idx → EReal) (w_lin : SLin.Idx → EReal) (b_lin : SBias.Idx → EReal) (b : Fin 4) (s : Fin 2048) (o : Fin 4096) :
    G x log_lr state w_bsp w_out w_lin b_lin (ix3 b s o) = Gat x log_lr state w_bsp w_out w_lin b_lin b s o := rfl

/-! ## Real entries -/

/-- An extended real that is a real number. -/
def IsReal (a : EReal) : Prop := ∃ r : ℝ, a = (r : EReal)

theorem IsReal.mul {a b : EReal} (ha : IsReal a) (hb : IsReal b) : IsReal (a * b) := by
  obtain ⟨p, rfl⟩ := ha; obtain ⟨q, rfl⟩ := hb; exact ⟨p * q, (EReal.coe_mul p q).symm⟩

theorem IsReal.add {a b : EReal} (ha : IsReal a) (hb : IsReal b) : IsReal (a + b) := by
  obtain ⟨p, rfl⟩ := ha; obtain ⟨q, rfl⟩ := hb; exact ⟨p + q, (EReal.coe_add p q).symm⟩

/-- The exponential of a real number is a real number. -/
theorem IsReal.exp {a : EReal} (ha : IsReal a) : IsReal (Ideal.exp a) := by
  obtain ⟨p, rfl⟩ := ha; exact ⟨Real.exp p, rfl⟩

/-- An IEEE pattern whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split
  · exact ⟨_, rfl⟩
  · exact ⟨_, rfl⟩

/-- The two literals are real numbers (their exponent fields are 133 and 120, not 255). -/
theorem isReal_c64 : IsReal (Ideal.ofBits .f32 0x42800000#32) :=
  isReal_ieee 8 23 (0x42800000#32 : BitVec 32) (by decide)
theorem isReal_c01 : IsReal (Ideal.ofBits .f32 0x3C23D70A#32) :=
  isReal_ieee 8 23 (0x3C23D70A#32 : BitVec 32) (by decide)

/-- The rate of a real `log_lr` entry is real. -/
theorem isReal_rate (log_lr : SRate.Idx → EReal) (h : ∀ k, IsReal (log_lr k)) (r : Fin 128) (i : Fin 4096) :
    IsReal (rate log_lr r i) :=
  isReal_c01.mul ((h _).mul isReal_c64).exp

/-! ## The law -/

/-- A real number times a sum of two real numbers is the sum of the two products, as extended reals. -/
theorem mul_add_of_isReal {x a w : EReal} (hx : IsReal x) (ha : IsReal a) (hw : IsReal w) :
    x * (a + w) = x * a + x * w := by
  obtain ⟨p, rfl⟩ := hx; obtain ⟨q, rfl⟩ := ha; obtain ⟨t, rfl⟩ := hw
  rw [← EReal.coe_add, ← EReal.coe_mul, mul_add, EReal.coe_add, EReal.coe_mul, EReal.coe_mul]

/-- The law between the two arrangements, over any finite index set: with real entries, contracting `x` against a sum
    is the sum of the two contractions. -/
theorem sum_mul_add_of_isReal {ι : Type*} (t : Finset ι) (x a w : ι → EReal)
    (hx : ∀ i, IsReal (x i)) (ha : ∀ i, IsReal (a i)) (hw : ∀ i, IsReal (w i)) :
    ∑ i ∈ t, x i * (a i + w i) = (∑ i ∈ t, x i * a i) + ∑ i ∈ t, x i * w i := by
  rw [← Finset.sum_add_distrib]
  exact Finset.sum_congr rfl fun i _ => mul_add_of_isReal (hx i) (ha i) (hw i)

/-- The low-rank activation in the other arrangement: with real entries it is the row of `x` contracted with the
    rate-scaled state, plus the row of `x` contracted with the shared factor. -/
theorem low_eq_add (x : SX.Idx → EReal) (log_lr : SRate.Idx → EReal) (state : SState.Idx → EReal) (w_bsp : SRate.Idx → EReal)
    (hx : ∀ k, IsReal (x k)) (hl : ∀ k, IsReal (log_lr k)) (hs : ∀ k, IsReal (state k)) (hw : ∀ k, IsReal (w_bsp k))
    (b : Fin 4) (s : Fin 2048) (r : Fin 128) :
    low x log_lr state w_bsp b s r
      = (∑ i : Fin 4096, x (ix3 b s i) * (rate log_lr r i * state (ix3 b r i))) + ∑ i : Fin 4096, x (ix3 b s i) * w_bsp (ix2 r i) :=
  sum_mul_add_of_isReal Finset.univ _ _ _ (fun _ => hx _) (fun i => (isReal_rate log_lr hl r i).mul (hs _)) (fun _ => hw _)

end Cert.Spec

end
-- ==== Proof.KHost.lean ====
/-
  What the kernel program's host operations write, read at an index at the ideal instance, from any contents `W` of the
  buffers before the stretch. A change of float format is the identity on extended reals, so the four converted
  arrays are the arguments themselves; the mixed factor is built entry by entry as in the specification (the rate
  and the shared factor each broadcast over the batch axis through a unit axis); and the bias viewed as one row
  reads, at `(0, o)`, the bias at `o`.
-/
import proofs.«171241_j26474178412911_2_alg».proof.Proof.Gen.KernelIdeal.Launch
import proofs.«171241_j26474178412911_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Acc

open Cert.KernelIdeal Cert.KernelIdeal.Gen Idealize.ShloMosaic Idealize.ShloMosaic.ValueIdx

/-! ## The broadcasts read at an index -/

/-- A scalar constant broadcast to `[128, 4096]` reads the extended real its word denotes, everywhere. -/
theorem splat_apply (w : BitVec 32) (hb : S_.BroadcastsInDim S128x4096 (![] : Fin 0 → Fin S128x4096.rank)) (j : S128x4096.Idx) :
    broadcastInDim S128x4096 ![] hb (constant (F := Ideal) S_ .f32 w) j = Ideal.ofBits .f32 w := by
  rw [broadcastInDim_apply _ hb _ j ix0 (fun a => a.elim0)]
  rfl

/-- The host's exponential at an index is the exponential of the entry. -/
theorem hostExp_apply {s : Shape} {φ : FTy} (v : FVec Ideal s φ) (j : s.Idx) : Host.exp v j = Ideal.exp (v j) := rfl

/-- A `[128, 4096]` array broadcast over the batch axis (through a unit axis) reads, at `(b, r, i)`, the array at `(r, i)`. -/
theorem overBatch_apply {α : Type} (y : S128x4096.Idx → α)
    (h1 : S128x4096.BroadcastsInDim S1x128x4096 (![1, 2] : Fin 2 → Fin S1x128x4096.rank))
    (h2 : S1x128x4096.BroadcastsInDim S4x128x4096 (![0, 1, 2] : Fin 3 → Fin S4x128x4096.rank))
    (b : Fin 4) (r : Fin 128) (i : Fin 4096) :
    broadcastInDim S4x128x4096 ![0, 1, 2] h2 (broadcastInDim S1x128x4096 ![1, 2] h1 y) (ix3 b r i) = y (ix2 r i) := by
  rw [broadcastInDim_apply _ h2 _ (ix3 b r i) (ix3 (0 : Fin 1) r i) (fun a => match a with
    | ⟨0, _⟩ => by show 0 = if (1 : Nat) = 1 then 0 else b.val; rw [if_pos rfl]
    | ⟨1, _⟩ => by show r.val = if (128 : Nat) = 1 then 0 else r.val; rw [if_neg (by decide)]
    | ⟨2, _⟩ => by show i.val = if (4096 : Nat) = 1 then 0 else i.val; rw [if_neg (by decide)])]
  rw [broadcastInDim_apply _ h1 _ (ix3 (0 : Fin 1) r i) (ix2 r i) (fun a => match a with
    | ⟨0, _⟩ => by show r.val = if (128 : Nat) = 1 then 0 else r.val; rw [if_neg (by decide)]
    | ⟨1, _⟩ => by show i.val = if (4096 : Nat) = 1 then 0 else i.val; rw [if_neg (by decide)])]

/-! ## The host operations' results -/

variable (W : Valuation Cert.KernelIdeal.τ Cert.KernelIdeal.sig (Elt Ideal))

/-- The converted `x` is `x`. -/
theorem host_v11 :
    (StableHlo.after (hostOps0 (F := Ideal)) W (Proc.devRef .tc main_v11) : S4x2048x4096.Idx → EReal) = W (Proc.devRef .tc main_arg0) := by
  after_results
  rfl

/-- The converted mixed factor at `(b, r, i)` is the specification's: the rate at `(r, i)` times the state at `(b, r, i)`
    plus the shared factor at `(r, i)`. -/
theorem host_v12 (b : Fin 4) (r : Fin 128) (i : Fin 4096) :
    (StableHlo.after (hostOps0 (F := Ideal)) W (Proc.devRef .tc main_v12) : S4x128x4096.Idx → EReal) (ix3 b r i)
      = Cert.Spec.mixed (W (Proc.devRef .tc main_arg1)) (W (Proc.devRef .tc main_arg2)) (W (Proc.devRef .tc main_arg4)) b r i := by
  after_results
  rw [truncf_apply, addf_apply, mulf_apply, overBatch_apply, overBatch_apply, mulf_apply, splat_apply]
  rw [hostExp_apply, mulf_apply, splat_apply]
  rfl

/-- The converted `w_out` is `w_out`. -/
theorem host_v13 :
    (StableHlo.after (hostOps0 (F := Ideal)) W (Proc.devRef .tc main_v13) : S4096x128.Idx → EReal) = W (Proc.devRef .tc main_arg5) := by
  after_results
  rfl

/-- The converted `w_lin` is `w_lin`. -/
theorem host_v14 :
    (StableHlo.after (hostOps0 (F := Ideal)) W (Proc.devRef .tc main_v14) : S4096x4096.Idx → EReal) = W (Proc.devRef .tc main_arg6) := by
  after_results
  rfl

/-- The bias viewed as one row reads, at `(u, o)`, the bias at `o`. -/
theorem host_v16 (u : Fin 1) (o : Fin 4096) :
    (StableHlo.after (hostOps1 (F := Ideal)) W (Proc.devRef .tc main_v16) : S1x4096.Idx → EReal) (ix2 u o)
      = W (Proc.devRef .tc main_arg7) (ix1 o) := by
  after_results
  exact shapeCast_a_1a_apply (W (Proc.devRef .tc main_arg7)) _ u o

end Cert.KernelIdeal.Acc

end
-- ==== Proof.KFinal.lean ====
/-
  The kernel program's result at the ideal instance, as one function of the argument arrays. The second region
  finds x, w_out and w_lin as launched (their format is changed on the way, which at the ideal instance changes
  nothing), the bias row reshaped, and z as the first region left it; the first region finds x as launched and the
  mixed state w(b, r, i) = lr(r, i) · state(b, r, i) + w_bsp(r, i) the host operations computed. So the result is
  y(b, s, o) = (∑ r, (∑ i, x(b, s, i) · w(b, r, i)) · w_out(o, r) + ∑ i, x(b, s, i) · w_lin(o, i)) + b_lin(o).
-/
import proofs.«171241_j26474178412911_2_alg».proof.Proof.K0Value
import proofs.«171241_j26474178412911_2_alg».proof.Proof.K1Value
import proofs.«171241_j26474178412911_2_alg».proof.Proof.KArgs
import proofs.«171241_j26474178412911_2_alg».proof.Proof.KHost
import proofs.«171241_j26474178412911_2_alg».proof.Proof.Spec

set_option maxRecDepth 16384

noncomputable section

namespace Cert.KernelIdeal.Acc

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## What the first region finds -/

theorem V1_v11 (c : Dev nD) : xb0 (V1 m ρ) c = m ((c : Thread nD τ).loc main_arg0) :=
  (host_v11 (W0 m ρ c)).trans rfl

theorem V1_v12 (c : Dev nD) (b : Fin 4) (r : Fin 128) (i : Fin 4096) :
    wb0 (V1 m ρ) c (ix3 b r i) = Cert.Spec.mixed (m ((c : Thread nD τ).loc main_arg1)) (m ((c : Thread nD τ).loc main_arg2)) (m ((c : Thread nD τ).loc main_arg4)) b r i :=
  (host_v12 (W0 m ρ c) b r i).trans rfl

/-- z as the first region leaves it. -/
theorem Z0_eq (c : Dev nD) (b : Fin 4) (s : Fin 2048) (r : Fin 128) :
    Z0 (V1 m ρ) c (ix3 b s r) = Cert.Spec.low (m ((c : Thread nD τ).loc main_arg0)) (m ((c : Thread nD τ).loc main_arg1)) (m ((c : Thread nD τ).loc main_arg2)) (m ((c : Thread nD τ).loc main_arg4)) b s r := by
  unfold Z0 Cert.Spec.low
  refine Finset.sum_congr rfl fun i _ => ?_
  show xb0 (V1 m ρ) c (ix3 b s i) * wb0 (V1 m ρ) c (ix3 b r i) = _
  rw [V1_v11, V1_v12]

/-! ## What the second region finds -/

theorem V3_v11 (c : Dev nD) : xb1 (V3 m ρ) c = m ((c : Thread nD τ).loc main_arg0) :=
  (W3_of_ne m ρ c main_v11 (by decide)).trans ((W2_arr m ρ c 0).trans (((dat0 (V1 m ρ) c).arrAt_in 0 rfl _).trans ((A_eq0 (V1 m ρ) c 0).trans (V1_v11 m ρ c))))

theorem V3_v15 (c : Dev nD) : zz1 (V3 m ρ) c = Z0 (V1 m ρ) c :=
  (W3_of_ne m ρ c main_v15 (by decide)).trans ((W2_arr m ρ c 2).trans (final0 (V1 m ρ) c))

theorem V3_v13 (c : Dev nD) : wo1 (V3 m ρ) c = m ((c : Thread nD τ).loc main_arg5) :=
  (W3_of_ne m ρ c main_v13 (by decide)).trans ((W2_of_ne m ρ c main_v13 (by decide)).trans ((host_v13 (W0 m ρ c)).trans rfl))

theorem V3_v14 (c : Dev nD) : wl1 (V3 m ρ) c = m ((c : Thread nD τ).loc main_arg6) :=
  (W3_of_ne m ρ c main_v14 (by decide)).trans ((W2_of_ne m ρ c main_v14 (by decide)).trans ((host_v14 (W0 m ρ c)).trans rfl))

theorem V3_v16 (c : Dev nD) (u : Fin 1) (o : Fin 4096) :
    bl1 (V3 m ρ) c (ix2 u o) = m ((c : Thread nD τ).loc main_arg7) (ix1 o) :=
  (host_v16 (W2 m ρ c) u o).trans (congrFun (W2_main_arg7 m ρ c) (ix1 o))

/-! ## The result -/

theorem Y1_eq (c : Dev nD) :
    Y1 (V3 m ρ) c = Cert.Spec.G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  funext y
  obtain ⟨b, s, o, rfl⟩ : ∃ (b : Fin 4) (s : Fin 2048) (o : Fin 4096), y = ix3 b s o := ⟨y 0, y 1, y 2, eq_ix3 y⟩
  rw [Cert.Spec.G_ix3]
  unfold Cert.Spec.Gat
  show ((∑ r : Fin 128, zz1 (V3 m ρ) c (ix3 b s r) * wo1 (V3 m ρ) c (ix2 o r)) + ∑ i : Fin 4096, xb1 (V3 m ρ) c (ix3 b s i) * wl1 (V3 m ρ) c (ix2 o i))
    + bl1 (V3 m ρ) c (ix2 (⟨0, Nat.one_pos⟩ : Fin 1) o) = _
  rw [V3_v11, V3_v13, V3_v14, V3_v15, V3_v16]
  refine congrArg (· + _) (congrArg (· + _) (Finset.sum_congr rfl fun r _ => ?_))
  rw [Z0_eq]

/-- THE RESULT ARRAY after the run. -/
theorem result (c : Dev nD) :
    W4 m ρ c (Proc.devRef .tc main_v17) = Cert.Spec.G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) :=
  (W4_arr m ρ c 5).trans ((final1 (V3 m ρ) c).trans (Y1_eq m ρ c))

/-- Every weakly fair execution terminates with the result array at that function of the arguments and every
    argument array as launched. -/
theorem run_value : θ_run defs (onTc (τ := τ) (main (F := Ideal))) ⟨m, fun _ => 0, ρ⟩ (fun r => ∀ c : Dev nD,
      r.2.mem ((c.tc : Thread nD τ).loc main_v17) = Cert.Spec.G (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_v17 (by decide))).trans (result m ρ c),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c)⟩)
    (run_all m ρ)

end Cert.KernelIdeal.Acc

end
-- ==== Proof.RefIsSpec.lean ====
/-
  The reference's result is the specification. The reference contracts the row of `x` against the rate-scaled state and
  against the shared factor separately and adds the two contractions; the specification contracts it once against their
  sum. With real entries in `x`, `log_lr`, `state` and `w_bsp` the two agree (a real number times a sum of two real
  numbers distributes; the exponential of a real number is real, so the rate is real). Everything else — the
  contraction with `w_out`, the contraction with `w_lin`, the bias — is the same term on both sides, read at an index.
-/
import proofs.«171241_j26474178412911_2_alg».proof.Proof.Gen.ReferenceIdeal.Read
import proofs.«171241_j26474178412911_2_alg».proof.Proof.Spec

noncomputable section

open scoped BigOperators

namespace Cert.ReferenceIdeal.RefValue

open Cert.ReferenceIdeal Cert.ReferenceIdeal.Read Cert.Spec Idealize.ShloMosaic Idealize.ShloMosaic.ValueIdx

/-! ## The operand indices of the reference's stages, by coordinates -/

/-- The contraction with `w_out` at `(b, s, o)` reads the low-rank activation at `(b, s, r)` … -/
theorem lidx_v11 (b : Fin 4) (s : Fin 2048) (o : Fin 4096) (r : Fin 128) : lidx_main_v11 (ix3 b s o) r = ix3 b s r :=
  funext fun a => Fin.ext (by match a with | ⟨0, _⟩ => rfl | ⟨1, _⟩ => rfl | ⟨2, _⟩ => rfl)
/-- … and `w_out` at `(o, r)`. -/
theorem ridx_v11 (b : Fin 4) (s : Fin 2048) (o : Fin 4096) (r : Fin 128) : ridx_main_v11 (ix3 b s o) r = ix2 o r :=
  funext fun a => Fin.ext (by match a with | ⟨0, _⟩ => rfl | ⟨1, _⟩ => rfl)
/-- The contraction with `w_lin` at `(b, s, o)` reads `x` at `(b, s, i)` … -/
theorem lidx_v12 (b : Fin 4) (s : Fin 2048) (o : Fin 4096) (i : Fin 4096) : lidx_main_v12 (ix3 b s o) i = ix3 b s i :=
  funext fun a => Fin.ext (by match a with | ⟨0, _⟩ => rfl | ⟨1, _⟩ => rfl | ⟨2, _⟩ => rfl)
/-- … and `w_lin` at `(o, i)`. -/
theorem ridx_v12 (b : Fin 4) (s : Fin 2048) (o : Fin 4096) (i : Fin 4096) : ridx_main_v12 (ix3 b s o) i = ix2 o i :=
  funext fun a => Fin.ext (by match a with | ⟨0, _⟩ => rfl | ⟨1, _⟩ => rfl)
/-- The batched contraction with the rate-scaled state at `(b, s, r)` reads `x` at `(b, s, i)` … -/
theorem lidx_v8 (b : Fin 4) (s : Fin 2048) (r : Fin 128) (i : Fin 4096) : lidx_main_v8 (ix3 b s r) i = ix3 b s i :=
  funext fun a => Fin.ext (by match a with | ⟨0, _⟩ => rfl | ⟨1, _⟩ => rfl | ⟨2, _⟩ => rfl)
/-- … and the rate-scaled state at `(b, r, i)`. -/
theorem ridx_v8 (b : Fin 4) (s : Fin 2048) (r : Fin 128) (i : Fin 4096) : ridx_main_v8 (ix3 b s r) i = ix3 b r i :=
  funext fun a => Fin.ext (by match a with | ⟨0, _⟩ => rfl | ⟨1, _⟩ => rfl | ⟨2, _⟩ => rfl)
/-- The contraction with the shared factor at `(b, s, r)` reads `x` at `(b, s, i)` … -/
theorem lidx_v9 (b : Fin 4) (s : Fin 2048) (r : Fin 128) (i : Fin 4096) : lidx_main_v9 (ix3 b s r) i = ix3 b s i :=
  funext fun a => Fin.ext (by match a with | ⟨0, _⟩ => rfl | ⟨1, _⟩ => rfl | ⟨2, _⟩ => rfl)
/-- … and the shared factor at `(r, i)`. -/
theorem ridx_v9 (b : Fin 4) (s : Fin 2048) (r : Fin 128) (i : Fin 4096) : ridx_main_v9 (ix3 b s r) i = ix2 r i :=
  funext fun a => Fin.ext (by match a with | ⟨0, _⟩ => rfl | ⟨1, _⟩ => rfl)
/-- The rate broadcast over the batch axis reads, at `(b, r, i)`, the rate at `(r, i)` (through the unit batch axis). -/
theorem idx_v6_v5 (b : Fin 4) (r : Fin 128) (i : Fin 4096) : idx_main_v5 (idx_main_v6 (ix3 b r i)) = ix2 r i :=
  funext fun a => Fin.ext (by match a with | ⟨0, _⟩ => rfl | ⟨1, _⟩ => rfl)
/-- The bias broadcast over batch and row reads, at `(b, s, o)`, the bias at `o` (through the two unit axes). -/
theorem idx_v15_v14 (b : Fin 4) (s : Fin 2048) (o : Fin 4096) : idx_main_v14 (idx_main_v15 (ix3 b s o)) = ix1 o :=
  funext fun a => Fin.ext (by match a with | ⟨0, _⟩ => rfl)

/-! ## The reference's last stage is the specification -/

/-- Under real entries of `x`, `log_lr`, `state` and `w_bsp`, the value the reference's last operation writes is the
    specification of the argument arrays, index by index. -/
theorem ref_eq_G (x0 : (⟨S4x2048x4096, .f32⟩ : BufTy).Contents (Elt Ideal)) (x1 : (⟨S128x4096, .f32⟩ : BufTy).Contents (Elt Ideal))
    (x2 : (⟨S4x128x4096, .f32⟩ : BufTy).Contents (Elt Ideal)) (x4 : (⟨S128x4096, .f32⟩ : BufTy).Contents (Elt Ideal))
    (x5 : (⟨S4096x128, .f32⟩ : BufTy).Contents (Elt Ideal)) (x6 : (⟨S4096x4096, .f32⟩ : BufTy).Contents (Elt Ideal))
    (x7 : (⟨S4096, .f32⟩ : BufTy).Contents (Elt Ideal))
    (hx : ∀ k, IsReal (x0 k)) (hl : ∀ k, IsReal (x1 k)) (hs : ∀ k, IsReal (x2 k)) (hw : ∀ k, IsReal (x4 k)) :
    val_main_v16 (F := Ideal) x0 x1 x2 x4 x5 x6 x7 = G x0 x1 x2 x4 x5 x6 x7 := by
  funext j
  obtain ⟨b, s, o, rfl⟩ : ∃ (b : Fin 4) (s : Fin 2048) (o : Fin 4096), j = ix3 b s o := ⟨j 0, j 1, j 2, eq_ix3 j⟩
  rw [G_ix3]
  simp only [val_main_v16_apply, val_main_v13_apply, val_main_v11_apply, val_main_v12_apply, val_main_v15_apply,
    val_main_v14_apply, val_main_v10_apply, val_main_v8_apply, val_main_v9_apply, val_main_v7_apply, val_main_v6_apply,
    val_main_v5_apply, val_main_v4_apply, val_main_v3_apply, val_main_cst_0_apply, val_main_v2_apply, val_main_v1_apply,
    val_main_v0_apply, val_main_cst_apply,
    lidx_v11, ridx_v11, lidx_v12, ridx_v12, lidx_v8, ridx_v8, lidx_v9, ridx_v9, idx_v6_v5, idx_v15_v14,
    Ideal.addf_def, Ideal.mulf_def, Ideal.hostUnary_exp_def, Ideal.ofBits_def]
  unfold Gat
  simp only [low_eq_add x0 x1 x2 x4 hx hl hs hw, rate]

end Cert.ReferenceIdeal.RefValue

end
-- ==== Proof.FiniteInputs.lean ====
/-
  From the precondition to real entries. The printed predicate is, array by array, "every entry's absolute value is
  below +∞", all eight conjoined; it is all ones. On the extended reals the absolute value `max a (-a)` of `⊤` and of `⊥`
  is `⊤`, which is not below `⊤`; so each entry is neither infinity, that is, a real number.
-/
import proofs.«171241_j26474178412911_2_alg».proof.Pre_finite_inputs
import proofs.«171241_j26474178412911_2_alg».proof.Proof.Spec
import Idealize.ShloMosaic.Lib.ReduceAll
import Idealize.ShloMosaic.Lib.Pipeline.Value

noncomputable section

namespace Cert.FiniteInputs

open Cert.Spec Idealize.ShloMosaic Idealize.ShloMosaic.ValueIdx

/-- The pattern of +∞ denotes `⊤`. -/
theorem ofBits_inf : Ideal.ofBits .f32 0x7F800000#32 = ⊤ := by simp [Ideal.ofBits, Ideal.ieee]

/-- An extended real whose absolute value compares below +∞ is a real number. -/
theorem isReal_of_abs_lt_inf (a : EReal)
    (h : FloatOps.cmpf (F := Ideal) (φ := .f32) .olt (FloatOps.hostAbsf (F := Ideal) (φ := .f32) a) (Ideal.ofBits .f32 0x7F800000#32) = 1#1) :
    IsReal a := by
  rw [ofBits_inf] at h
  have hlt : max a (-a) < ⊤ := by
    by_contra hn
    have : FloatOps.cmpf (F := Ideal) (φ := .f32) .olt (FloatOps.hostAbsf (F := Ideal) (φ := .f32) a) ⊤ = 0#1 := by
      show BitVec.ofBool (decide (max a (-a) < ⊤)) = 0#1
      rw [decide_eq_false hn]; rfl
    rw [this] at h
    exact absurd h (by decide)
  induction a using EReal.rec with
  | bot => simp at hlt
  | top => simp at hlt
  | coe r => exact ⟨r, rfl⟩

/-- The scalar shape has one index. -/
instance : Subsingleton Cert.Pre_finite_inputs.S_.Idx := ⟨fun a b => funext fun d => d.elim0⟩

/-- One array's conjunct: if the conjunction over all entries of "absolute value below +∞" is one, every entry is real. -/
theorem isReal_of_all {S : Shape} {axes : List (Fin S.rank)} (a : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (h : Host.reduce IntOp.andi (cmpf .olt (Host.absf a) (broadcastInDim S ![] hb (constant (F := Ideal) Cert.Pre_finite_inputs.S_ .f32 0x7F800000#32)))
      (constantI Cert.Pre_finite_inputs.S_ 1 1#1) hr hu ix0 = 1#1) (i : S.Idx) : IsReal (a i) := by
  have e := Host.reduce_andi_all _ _ hr hu ix0 h i
  refine isReal_of_abs_lt_inf (a i) ?_
  rw [← e]
  show _ = FloatOps.cmpf .olt (FloatOps.hostAbsf (a i)) (broadcastInDim S ![] hb (constant (F := Ideal) Cert.Pre_finite_inputs.S_ .f32 0x7F800000#32) i)
  rw [broadcastInDim_apply _ hb _ i ix0 (fun d => d.elim0)]
  rfl

/-- The precondition at the ideal instance: every entry of every argument array is a real number. -/
theorem real_of_pre [Cert.Pre_finite_inputs.Facts]
    (a0 : FVec Ideal Cert.Pre_finite_inputs.S4x2048x4096 .f32) (a1 : FVec Ideal Cert.Pre_finite_inputs.S128x4096 .f32)
    (a2 a3 : FVec Ideal Cert.Pre_finite_inputs.S4x128x4096 .f32) (a4 : FVec Ideal Cert.Pre_finite_inputs.S128x4096 .f32)
    (a5 : FVec Ideal Cert.Pre_finite_inputs.S4096x128 .f32) (a6 : FVec Ideal Cert.Pre_finite_inputs.S4096x4096 .f32)
    (a7 : FVec Ideal Cert.Pre_finite_inputs.S4096 .f32)
    (h : Cert.Pre_finite_inputs.fn (F := Ideal) a0 a1 a2 a3 a4 a5 a6 a7 = fun _ => 1#1) :
    (∀ k, IsReal (a0 k)) ∧ (∀ k, IsReal (a1 k)) ∧ (∀ k, IsReal (a2 k)) ∧ (∀ k, IsReal (a3 k)) ∧ (∀ k, IsReal (a4 k))
      ∧ (∀ k, IsReal (a5 k)) ∧ (∀ k, IsReal (a6 k)) ∧ (∀ k, IsReal (a7 k)) := by
  have h0 := congrFun h ix0
  dsimp only [Cert.Pre_finite_inputs.fn, Cert.Pre_finite_inputs.fn_part1, Cert.Pre_finite_inputs.fn_part2] at h0
  simp only [andi, IntOp.andi_eq_one] at h0
  obtain ⟨⟨⟨⟨⟨⟨⟨p0, p1⟩, p2⟩, p3⟩, p4⟩, p5⟩, p6⟩, p7⟩ := h0
  exact ⟨isReal_of_all a0 _ _ _ p0, isReal_of_all a1 _ _ _ p1, isReal_of_all a2 _ _ _ p2, isReal_of_all a3 _ _ _ p3,
    isReal_of_all a4 _ _ _ p4, isReal_of_all a5 _ _ _ p5, isReal_of_all a6 _ _ _ p6, isReal_of_all a7 _ _ _ p7⟩

end Cert.FiniteInputs

end
-- ==== Proof.lean ====
/-
  The kernel program computes, through two accumulating kernel regions,
    y(b, s, o) = (∑ r, (∑ i, x(b, s, i) · w(b, r, i)) · w_out(o, r) + ∑ i, x(b, s, i) · w_lin(o, i)) + b_lin(o),
    w(b, r, i) = lr(r, i) · state(b, r, i) + w_bsp(r, i),   lr(r, i) = 0.01 · exp(64 · log_lr(r, i)),
  each inner sum accumulated block by block along the contracted axis. The reference computes the same with the
  first inner sum split in two, ∑ i, x · (lr · state) + ∑ i, x · w_bsp. On the extended reals the two agree where
  multiplication distributes over the sum, which it does on finite values: every input entry is a real number by the
  precondition, and the exponential of a real number is a real number. A change of float format is the identity at
  the ideal instance, and the order in which a sum's terms are added does not matter.
  The three frames: each program terminates on every weakly fair execution, faults nowhere, and writes no argument
  array. The idealization rewrote no operation, so there is nothing to preserve.
-/
import proofs.«171241_j26474178412911_2_alg».proof.Defs
import proofs.«171241_j26474178412911_2_alg».proof.Proof.Gen.Kernel
import proofs.«171241_j26474178412911_2_alg».proof.Proof.Gen.KernelIdeal
import proofs.«171241_j26474178412911_2_alg».proof.Proof.Gen.ReferenceIdeal
import proofs.«171241_j26474178412911_2_alg».proof.Proof.Gen.ReferenceIdeal.Read
import proofs.«171241_j26474178412911_2_alg».proof.Proof.Gen.Pre_finite_inputs
import proofs.«171241_j26474178412911_2_alg».proof.Proof.BKArgs
import proofs.«171241_j26474178412911_2_alg».proof.Proof.KFinal
import proofs.«171241_j26474178412911_2_alg».proof.Proof.RefIsSpec
import proofs.«171241_j26474178412911_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Acc.frame m ρ

theorem frame_ki : Cert.frame_KernelIdeal := fun m ρ _ => Cert.KernelIdeal.Acc.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at one function of the argument arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Acc.run_value m ρ, ?_⟩
  refine (θ_run Cert.ReferenceIdeal.defs _ _).mono (fun _ h c => ⟨?_, (h c).2⟩)
    (Cert.ReferenceIdeal.Value.run (F := Ideal) m' ρ')
  obtain ⟨hx, hl, hs, -, hw, -, -, -⟩ := Cert.FiniteInputs.real_of_pre _ _ _ _ _ _ _ _ (hpre c)
  obtain ⟨a0, a1, a2, -, a4, a5, a6, a7⟩ := hagree c
  rw [(h c).1, a0, a1, a2, a4, a5, a6, a7]
  exact (Cert.ReferenceIdeal.Read.val_main_v16_eq _ _ _ _ _ _ _).trans
    (Cert.ReferenceIdeal.RefValue.ref_eq_G _ _ _ _ _ _ _ hx hl hs hw)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
